-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part5 {F : FTy → Type} [FloatOps F] (main_arg18 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2x4096x2048 : Shape := ⟨3, ![2, 4096, 2048]⟩
abbrev S256x2048 : Shape := ⟨2, ![256, 2048]⟩
abbrev S256x256 : Shape := ⟨2, ![256, 256]⟩
abbrev S1x256 : Shape := ⟨2, ![1, 256]⟩
abbrev S2x256x256 : Shape := ⟨3, ![2, 256, 256]⟩
abbrev S1x256x256 : Shape := ⟨3, ![1, 256, 256]⟩

abbrev nBuf : Space → Nat
  | .hbm => 28
  | .vmem => 40
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S2x4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S2x256x256, .f32⟩
  | .local _ .vmem, ⟨39, _⟩ => ⟨S2x256x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S2x256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  shapeCasts_S256x256_S1x256x256 : S256x256.ShapeCasts S1x256x256
  inb_S2x256x256_S1x256x256_1_0_0 : ∀ a, (![1, 0, 0] : Fin 3 → Nat) a + S1x256x256.size a ≤ S2x256x256.size a
  dot_S256x2048_S256x2048_S256x256_1_1_0_0_n_n_wf : DotDims.WF S256x2048 S256x2048 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x2048.size a
  hwx0_2 : ∀ i : grid0.Coords, EltTy.bits .f32 = 32 ∨ (Rect.block (s := S4096x2048) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .f32 = 32 ∨ (Rect.block (s := S2048x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .f32 = 32 ∨ (Rect.block (s := S2048x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .f32 = 32 ∨ (Rect.block (s := S2048x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .f32 = 32 ∨ (Rect.block (s := S2048x2048) S256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .f32 = 32 ∨ (Rect.block (s := S2048x2048) S256x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .f32 = 32 ∨ (Rect.block (s := S2048x2048) S256x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .f32 = 32 ∨ (Rect.block (s := S2048x2048) S256x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x2048.size a
  hwx0_15 : ∀ i : grid0.Coords, EltTy.bits .f32 = 32 ∨ (Rect.block (s := S1x2048) S1x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x2048.size a
  hwx0_16 : ∀ i : grid0.Coords, EltTy.bits .f32 = 32 ∨ (Rect.block (s := S1x2048) S1x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x2048.size a
  hwx0_17 : ∀ i : grid0.Coords, EltTy.bits .f32 = 32 ∨ (Rect.block (s := S1x2048) S1x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x2048.size a
  hwx0_18 : ∀ i : grid0.Coords, EltTy.bits .f32 = 32 ∨ (Rect.block (s := S1x2048) S1x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2x256x256.size a ≤ S2x4096x2048.size a
  hwx0_19 : ∀ i : grid0.Coords, EltTy.bits .f32 = 32 ∨ (Rect.block (s := S2x4096x2048) S2x256x256.size (cc0_transform_19 i) (hinb0_19 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg15) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg17) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v2) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v3) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4) S1x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v5) S1x256.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v6) S1x256.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v7) S1x256.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v8) S2x256x256.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩
abbrev S1x4096x2048 : Shape := ⟨3, ![1, 4096, 2048]⟩
abbrev S2x4096x2048 : Shape := ⟨3, ![2, 4096, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S8192x2048, .f32⟩
  | .hbm, ⟨20, _⟩ => ⟨S8192x2048, .f32⟩
  | .hbm, ⟨21, _⟩ => ⟨S8192, .f32⟩
  | .hbm, ⟨22, _⟩ => ⟨S8192, .f32⟩
  | .hbm, ⟨23, _⟩ => ⟨S2048x8192, .f32⟩
  | .hbm, ⟨24, _⟩ => ⟨S4096x8192, .f32⟩
  | .hbm, ⟨25, _⟩ => ⟨S2048x8192, .f32⟩
  | .hbm, ⟨26, _⟩ => ⟨S4096x8192, .f32⟩
  | .hbm, ⟨27, _⟩ => ⟨S4096x8192, .f32⟩
  | .hbm, ⟨28, _⟩ => ⟨S1x8192, .f32⟩
  | .hbm, ⟨29, _⟩ => ⟨S4096x8192, .f32⟩
  | .hbm, ⟨30, _⟩ => ⟨S4096x8192, .f32⟩
  | .hbm, ⟨31, _⟩ => ⟨S1x8192, .f32⟩
  | .hbm, ⟨32, _⟩ => ⟨S4096x8192, .f32⟩
  | .hbm, ⟨33, _⟩ => ⟨S4096x8192, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x4096x2048, .f32⟩
  | .hbm, ⟨69, _⟩ => ⟨S1x4096x2048, .f32⟩
  | .hbm, ⟨70, _⟩ => ⟨S2x4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]

class Facts₀ : Prop where
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  bcast_S4096x2048_S1x4096x2048_1_2 : S4096x2048.BroadcastsInDim S1x4096x2048 (![1, 2] : Fin 2 → Fin S1x4096x2048.rank)
  concatenates_S1x4096x2048_S1x4096x2048_S2x4096x2048_d0 : Shape.Concatenates [S1x4096x2048, S1x4096x2048] S2x4096x2048 0
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.CellStep.lean ====
/-
  One step of a long short-term memory cell over the extended reals, entry by entry.

  For batch row p and hidden unit q each of the four gates (input, forget, candidate, output) has the pre-activation
      z = ((Σ_k x(p,k)·W(q,k) + Σ_k h(p,k)·U(q,k)) + b(q)) + d(q),
  with its own input weights W, hidden weights U and biases b, d, and the terms added in exactly this order. With σ the
  logistic function,
      c'(p,q) = σ(z_f)·c(p,q) + σ(z_i)·tanh(z_g),        h'(p,q) = σ(z_o)·tanh(c'(p,q)),
  and the result stacks h' (plane 0) on c' (plane 1).

  The value at (p, q) uses row p of x and of h, entry (p, q) of c, row q of the eight weight matrices and entry q of the
  eight bias vectors, and nothing else. So the definitions below take rows and entries, not arrays: a tile of the result
  is then the same function of the matching rows of tiles of the arguments, with no algebra needed to see it.
-/
import Idealize.ShloMosaic.Lib.ValueIdx
import Idealize.ShloMosaic.PureOps.Ideal

noncomputable section

namespace Cert.CellStep

open Idealize.ShloMosaic Idealize.ShloMosaic.ValueIdx

/-- Row `p` of a matrix, as a function of the column. -/
abbrev row {A K : ℕ} (X : (⟨2, ![A, K]⟩ : Shape).Idx → EReal) (p : Fin A) : Fin K → EReal := fun k => X (ix2 p k)

/-- A gate's pre-activation from a row of `x` and the gate's row of input weights, a row of `h` and the gate's row of
    hidden weights, and the gate's two bias entries: the two inner products first, then the biases one after the other. -/
def pre {I J : ℕ} (xr wr : Fin I → EReal) (hr ur : Fin J → EReal) (b d : EReal) : EReal :=
  (∑ k : Fin I, xr k * wr k) + (∑ k : Fin J, hr k * ur k) + b + d

/-- The new cell entry from the input, forget and candidate pre-activations and the old cell entry. -/
def cellNew (zi zf zg c : EReal) : EReal := Ideal.logistic zf * c + Ideal.logistic zi * Ideal.tanh zg

/-- The new hidden entry from the output pre-activation and the new cell entry. -/
def hiddenNew (zo c' : EReal) : EReal := Ideal.logistic zo * Ideal.tanh c'

/-- The four pre-activations at `(p, q)` are each `pre` of rows `p` of `x`, `h` and row `q` of that gate's parameters; the
    new cell entry at `(p, q)`, for a batch of `B` rows, `I` inputs, a previous hidden state of width `J` and `H` hidden units. The arguments come in the order
    x h c, then (W U b d) for the input, forget, candidate and output gate. -/
def cellAt {B I J H : ℕ} (x : (⟨2, ![B, I]⟩ : Shape).Idx → EReal) (h : (⟨2, ![B, J]⟩ : Shape).Idx → EReal) (c : (⟨2, ![B, H]⟩ : Shape).Idx → EReal)
    (Wi : (⟨2, ![H, I]⟩ : Shape).Idx → EReal) (Ui : (⟨2, ![H, J]⟩ : Shape).Idx → EReal) (bi di : (⟨1, ![H]⟩ : Shape).Idx → EReal)
    (Wf : (⟨2, ![H, I]⟩ : Shape).Idx → EReal) (Uf : (⟨2, ![H, J]⟩ : Shape).Idx → EReal) (bf df : (⟨1, ![H]⟩ : Shape).Idx → EReal)
    (Wg : (⟨2, ![H, I]⟩ : Shape).Idx → EReal) (Ug : (⟨2, ![H, J]⟩ : Shape).Idx → EReal) (bg dg : (⟨1, ![H]⟩ : Shape).Idx → EReal)
    (p : Fin B) (q : Fin H) : EReal :=
  cellNew (pre (row x p) (row Wi q) (row h p) (row Ui q) (bi (ix1 q)) (di (ix1 q)))
    (pre (row x p) (row Wf q) (row h p) (row Uf q) (bf (ix1 q)) (df (ix1 q)))
    (pre (row x p) (row Wg q) (row h p) (row Ug q) (bg (ix1 q)) (dg (ix1 q)))
    (c (ix2 p q))

/-- The new hidden entry at `(p, q)`: the output gate applied to the new cell entry. -/
def hiddenAt {B I J H : ℕ} (x : (⟨2, ![B, I]⟩ : Shape).Idx → EReal) (h : (⟨2, ![B, J]⟩ : Shape).Idx → EReal) (c : (⟨2, ![B, H]⟩ : Shape).Idx → EReal)
    (Wi : (⟨2, ![H, I]⟩ : Shape).Idx → EReal) (Ui : (⟨2, ![H, J]⟩ : Shape).Idx → EReal) (bi di : (⟨1, ![H]⟩ : Shape).Idx → EReal)
    (Wf : (⟨2, ![H, I]⟩ : Shape).Idx → EReal) (Uf : (⟨2, ![H, J]⟩ : Shape).Idx → EReal) (bf df : (⟨1, ![H]⟩ : Shape).Idx → EReal)
    (Wg : (⟨2, ![H, I]⟩ : Shape).Idx → EReal) (Ug : (⟨2, ![H, J]⟩ : Shape).Idx → EReal) (bg dg : (⟨1, ![H]⟩ : Shape).Idx → EReal)
    (Wo : (⟨2, ![H, I]⟩ : Shape).Idx → EReal) (Uo : (⟨2, ![H, J]⟩ : Shape).Idx → EReal) (bo do' : (⟨1, ![H]⟩ : Shape).Idx → EReal)
    (p : Fin B) (q : Fin H) : EReal :=
  hiddenNew (pre (row x p) (row Wo q) (row h p) (row Uo q) (bo (ix1 q)) (do' (ix1 q)))
    (cellAt x h c Wi Ui bi di Wf Uf bf df Wg Ug bg dg p q)

/-- The step's result as one array: plane 0 the new hidden state, plane 1 the new cell state. -/
def step {B I J H : ℕ} (x : (⟨2, ![B, I]⟩ : Shape).Idx → EReal) (h : (⟨2, ![B, J]⟩ : Shape).Idx → EReal) (c : (⟨2, ![B, H]⟩ : Shape).Idx → EReal)
    (Wi : (⟨2, ![H, I]⟩ : Shape).Idx → EReal) (Ui : (⟨2, ![H, J]⟩ : Shape).Idx → EReal) (bi di : (⟨1, ![H]⟩ : Shape).Idx → EReal)
    (Wf : (⟨2, ![H, I]⟩ : Shape).Idx → EReal) (Uf : (⟨2, ![H, J]⟩ : Shape).Idx → EReal) (bf df : (⟨1, ![H]⟩ : Shape).Idx → EReal)
    (Wg : (⟨2, ![H, I]⟩ : Shape).Idx → EReal) (Ug : (⟨2, ![H, J]⟩ : Shape).Idx → EReal) (bg dg : (⟨1, ![H]⟩ : Shape).Idx → EReal)
    (Wo : (⟨2, ![H, I]⟩ : Shape).Idx → EReal) (Uo : (⟨2, ![H, J]⟩ : Shape).Idx → EReal) (bo do' : (⟨1, ![H]⟩ : Shape).Idx → EReal) :
    (⟨3, ![2, B, H]⟩ : Shape).Idx → EReal := fun j =>
  if (j 0).val = 0 then hiddenAt x h c Wi Ui bi di Wf Uf bf df Wg Ug bg dg Wo Uo bo do' (j 1) (j 2)
  else cellAt x h c Wi Ui bi di Wf Uf bf df Wg Ug bg dg (j 1) (j 2)

/-- Plane 0 of the result at `(p, q)`. -/
theorem step_hidden {B I J H : ℕ} (x : (⟨2, ![B, I]⟩ : Shape).Idx → EReal) (h : (⟨2, ![B, J]⟩ : Shape).Idx → EReal) (c : (⟨2, ![B, H]⟩ : Shape).Idx → EReal)
    (Wi : (⟨2, ![H, I]⟩ : Shape).Idx → EReal) (Ui : (⟨2, ![H, J]⟩ : Shape).Idx → EReal) (bi di : (⟨1, ![H]⟩ : Shape).Idx → EReal)
    (Wf : (⟨2, ![H, I]⟩ : Shape).Idx → EReal) (Uf : (⟨2, ![H, J]⟩ : Shape).Idx → EReal) (bf df : (⟨1, ![H]⟩ : Shape).Idx → EReal)
    (Wg : (⟨2, ![H, I]⟩ : Shape).Idx → EReal) (Ug : (⟨2, ![H, J]⟩ : Shape).Idx → EReal) (bg dg : (⟨1, ![H]⟩ : Shape).Idx → EReal)
    (Wo : (⟨2, ![H, I]⟩ : Shape).Idx → EReal) (Uo : (⟨2, ![H, J]⟩ : Shape).Idx → EReal) (bo do' : (⟨1, ![H]⟩ : Shape).Idx → EReal)
    (p : Fin B) (q : Fin H) :
    step x h c Wi Ui bi di Wf Uf bf df Wg Ug bg dg Wo Uo bo do' (ix3 (0 : Fin 2) p q)
      = hiddenAt x h c Wi Ui bi di Wf Uf bf df Wg Ug bg dg Wo Uo bo do' p q := rfl

/-- Plane 1 of the result at `(p, q)`. -/
theorem step_cell {B I J H : ℕ} (x : (⟨2, ![B, I]⟩ : Shape).Idx → EReal) (h : (⟨2, ![B, J]⟩ : Shape).Idx → EReal) (c : (⟨2, ![B, H]⟩ : Shape).Idx → EReal)
    (Wi : (⟨2, ![H, I]⟩ : Shape).Idx → EReal) (Ui : (⟨2, ![H, J]⟩ : Shape).Idx → EReal) (bi di : (⟨1, ![H]⟩ : Shape).Idx → EReal)
    (Wf : (⟨2, ![H, I]⟩ : Shape).Idx → EReal) (Uf : (⟨2, ![H, J]⟩ : Shape).Idx → EReal) (bf df : (⟨1, ![H]⟩ : Shape).Idx → EReal)
    (Wg : (⟨2, ![H, I]⟩ : Shape).Idx → EReal) (Ug : (⟨2, ![H, J]⟩ : Shape).Idx → EReal) (bg dg : (⟨1, ![H]⟩ : Shape).Idx → EReal)
    (Wo : (⟨2, ![H, I]⟩ : Shape).Idx → EReal) (Uo : (⟨2, ![H, J]⟩ : Shape).Idx → EReal) (bo do' : (⟨1, ![H]⟩ : Shape).Idx → EReal)
    (p : Fin B) (q : Fin H) :
    step x h c Wi Ui bi di Wf Uf bf df Wg Ug bg dg Wo Uo bo do' (ix3 (1 : Fin 2) p q)
      = cellAt x h c Wi Ui bi di Wf Uf bf df Wg Ug bg dg p q := rfl

end Cert.CellStep

end
-- ==== Proof.LibMatmulTransposedRhs.lean ====
/-
  A matrix product with the right operand given row by row, read at one entry, over the extended reals.

  For any extents M, K, N: the product of an M×K matrix and an N×K matrix in which the left operand's axis 1 is
  contracted with the right operand's axis 1 (no batch axes) — the left matrix times the transpose of the right one —,
  accumulated into the zero matrix, is at entry (p, n) the sum over k of left(p, k) · right(n, k). The accumulator
  contributes 0 + ·, the contraction index is one coordinate k, and the operand indices at (p, n) and k are (p, k) and
  (n, k).
-/
import Idealize.ShloMosaic.Lib.ValueIdx
import Idealize.ShloMosaic.PureOps.Ideal.Laws

namespace Cert.LibMatmulTransposedRhs

open Idealize.ShloMosaic Idealize.ShloMosaic.ValueIdx

/-- The left operand's index at result entry `(p, n)` and contraction coordinate `k` is `(p, k)`. -/
theorem lhsIdx_at {M K N : ℕ} (p : Fin M) (n : Fin N) (k : Fin K) :
    (DotDims.transposedRhs M K N).lhsIdx (ix2 p n) ((contrEquiv1 (DotDims.transposedRhs M K N) K rfl rfl).symm k) = ix2 p k :=
  funext fun a => Fin.ext (by
    match a with
    | ⟨0, _⟩ => rfl
    | ⟨1, _⟩ =>
      exact ((DotDims.transposedRhs M K N).lhsIdx_val_of_single rfl _ _).trans
        (contrEquiv1_symm_val (DotDims.transposedRhs M K N) K rfl rfl k))

/-- The right operand's index at result entry `(p, n)` and contraction coordinate `k` is `(n, k)`. -/
theorem rhsIdx_at {M K N : ℕ} (p : Fin M) (n : Fin N) (k : Fin K) :
    (DotDims.transposedRhs M K N).rhsIdx (ix2 p n) ((contrEquiv1 (DotDims.transposedRhs M K N) K rfl rfl).symm k) = ix2 n k :=
  funext fun a => Fin.ext (by
    match a with
    | ⟨0, _⟩ => rfl
    | ⟨1, _⟩ =>
      exact ((DotDims.transposedRhs M K N).rhsIdx_val_of_single rfl _ _).trans
        (contrEquiv1_symm_val (DotDims.transposedRhs M K N) K rfl rfl k))

/-- An M×K matrix times the transpose of an N×K matrix into the zero accumulator, at entry `(p, n)`:
    `∑ k, l (p, k) * r (n, k)`. -/
theorem matmul_zero_apply {M K N : ℕ} {φ₁ φ₂ : FTy} (prec : Option ContractPrecision)
    (l : FVec Ideal ⟨2, ![M, K]⟩ φ₁) (r : FVec Ideal ⟨2, ![N, K]⟩ φ₂) (p : Fin M) (n : Fin N) :
    matmul (DotDims.transposedRhs M K N) prec l r (constant (F := Ideal) ⟨2, ![M, N]⟩ .f32 0x00000000#32) (ix2 p n)
      = ∑ k : Fin K, l (ix2 p k) * r (ix2 n k) := by
  show FloatOps.matmul _ _ _ _ _ _ = _
  rw [Ideal.matmul_constant_zero_apply, ← Equiv.sum_comp (contrEquiv1 (DotDims.transposedRhs M K N) K rfl rfl).symm]
  refine Finset.sum_congr rfl fun k _ => ?_
  rw [lhsIdx_at, rhsIdx_at]

/-- The same for any dimension-numbers record `D` that is this one (a printed program names its own record). -/
theorem matmul_eq_zero_apply {M K N : ℕ} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (p : Fin M) (n : Fin N) :
    matmul D prec l r (constant (F := Ideal) ⟨2, ![M, N]⟩ .f32 0x00000000#32) (ix2 p n)
      = ∑ k : Fin K, l (ix2 p k) * r (ix2 n k) := by
  subst hD; exact matmul_zero_apply prec l r p n

end Cert.LibMatmulTransposedRhs
-- ==== Proof.KernelTile.lean ====
/-
  What the kernel body leaves in its output tile, entry by entry, over the extended reals.

  The body works on one tile: 256 rows of x and of h (all 2048 columns), the 256 × 256 tile of c, for each gate 256 rows
  of its input weights and of its hidden weights (all 2048 columns) and the 256 matching entries of its two biases, each
  bias held as a 1 × 256 row. It forms each gate's pre-activation as
      (x-tile · (W-tile)ᵀ + h-tile · (U-tile)ᵀ) + bias row + bias row,
  the products accumulated from zero and each bias row repeated down the 256 rows, applies the logistic function or tanh,
  and stores h' in plane 0 and c' in plane 1 of a 2 × 256 × 256 tile. Read at tile entry (a, b) this is the cell step of
  row a of the x- and h-tiles, entry (a, b) of the c-tile, row b of each weight tile and entry b of each bias row.
-/
import proofs.«109894_j17480516895199_2_alg».proof.Proof.Gen.KernelIdeal.Frame
import proofs.«109894_j17480516895199_2_alg».proof.Proof.CellStep
import proofs.«109894_j17480516895199_2_alg».proof.Proof.LibMatmulTransposedRhs
import Idealize.ShloMosaic.Lib.ValueLayout

noncomputable section

namespace Cert.KernelIdeal.Tile

open Idealize.ShloMosaic Idealize.ShloMosaic.ValueIdx Cert.KernelIdeal Cert.KernelIdeal.Gen Cert.CellStep
open Cert.LibMatmulTransposedRhs (matmul_eq_zero_apply)

theorem zero_off2 : (![0, 0] : Fin 2 → Nat) = fun _ => 0 := funext fun a => by fin_cases a <;> rfl

/-- One gate's pre-activation as the body spells it, at tile entry `(a, b)`: the two products are inner products of row
    `a` with row `b`, and a bias row repeated down the rows gives its entry `b`. -/
theorem gate_apply (v0 v1 w u : FVec Ideal S256x2048 .f32) (r d : FVec Ideal S1x256 .f32) (a b : Fin 256) :
    addf (addf (addf (matmul dot_S256x2048_S256x2048_S256x256_1_1_0_0_n_n (some .fp32) v0 w (constant (F := Ideal) S256x256 .f32 0x00000000#32))
                     (matmul dot_S256x2048_S256x2048_S256x256_1_1_0_0_n_n (some .fp32) v1 u (constant (F := Ideal) S256x256 .f32 0x00000000#32)))
               (broadcastTo S256x256 (shapeCast S1x256 r shapeCasts_S1x256_S1x256) broadcasts_S1x256_S256x256))
         (broadcastTo S256x256 (shapeCast S1x256 d shapeCasts_S1x256_S1x256) broadcasts_S1x256_S256x256) (ix2 a b)
      = pre (row v0 a) (row w b) (row v1 a) (row u b) (r (ix2 (0 : Fin 1) b)) (d (ix2 (0 : Fin 1) b)) := by
  have e1 := matmul_eq_zero_apply (M := 256) (K := 2048) (N := 256) dot_S256x2048_S256x2048_S256x256_1_1_0_0_n_n rfl (some .fp32) v0 w a b
  have e2 := matmul_eq_zero_apply (M := 256) (K := 2048) (N := 256) dot_S256x2048_S256x2048_S256x256_1_1_0_0_n_n rfl (some .fp32) v1 u a b
  have e3 := broadcastTo_1b_ab_apply (a := 256) (b := 256) (shapeCast S1x256 r shapeCasts_S1x256_S1x256) broadcasts_S1x256_S256x256 a b
  have e4 := broadcastTo_1b_ab_apply (a := 256) (b := 256) (shapeCast S1x256 d shapeCasts_S1x256_S1x256) broadcasts_S1x256_S256x256 a b
  show ((_ + _) + _) + _ = _
  rw [e1, e2, e3, e4, shapeCast_self, shapeCast_self]
  rfl

/-- The input gate's pre-activation at tile entry `(a, b)`. -/
theorem pay2_apply (v0 v1 v3 v4 : FVec Ideal S256x2048 .f32) (v8 v12 : FVec Ideal S1x256 .f32) (a b : Fin 256) :
    k0_pay2 (F := Ideal) v0 v1 v3 v4 v8 v12 (ix2 a b)
      = pre (row v0 a) (row v3 b) (row v1 a) (row v4 b) (v8 (ix2 (0 : Fin 1) b)) (v12 (ix2 (0 : Fin 1) b)) :=
  gate_apply v0 v1 v3 v4 v8 v12 a b

/-- The forget gate's pre-activation at tile entry `(a, b)`. -/
theorem pay3_apply (v0 v1 v16 v17 : FVec Ideal S256x2048 .f32) (v21 v25 : FVec Ideal S1x256 .f32) (a b : Fin 256) :
    k0_pay3 (F := Ideal) v0 v1 v16 v17 v21 v25 (ix2 a b)
      = pre (row v0 a) (row v16 b) (row v1 a) (row v17 b) (v21 (ix2 (0 : Fin 1) b)) (v25 (ix2 (0 : Fin 1) b)) :=
  gate_apply v0 v1 v16 v17 v21 v25 a b

/-- The new cell tile at `(a, b)`, from the input and forget pre-activations already formed (`zi`, `zf`) and the
    candidate gate's parameters. -/
theorem pay4_apply (v0 v1 : FVec Ideal S256x2048 .f32) (v2 zi zf : FVec Ideal S256x256 .f32) (v29 v30 : FVec Ideal S256x2048 .f32)
    (v34 v38 : FVec Ideal S1x256 .f32) (a b : Fin 256) :
    k0_pay4 (F := Ideal) v0 v1 v2 zi zf v29 v30 v34 v38 (ix2 a b)
      = cellNew (zi (ix2 a b)) (zf (ix2 a b))
          (pre (row v0 a) (row v29 b) (row v1 a) (row v30 b) (v34 (ix2 (0 : Fin 1) b)) (v38 (ix2 (0 : Fin 1) b))) (v2 (ix2 a b)) := by
  have e := gate_apply v0 v1 v29 v30 v34 v38 a b
  unfold cellNew
  rw [← e]
  rfl

/-- The new hidden tile, stored with a leading unit axis, at `(0, a, b)`. -/
theorem pay5_apply (v0 v1 : FVec Ideal S256x2048 .f32) (v2 zi zf : FVec Ideal S256x256 .f32) (v29 v30 : FVec Ideal S256x2048 .f32)
    (v34 v38 : FVec Ideal S1x256 .f32) (v42 v43 : FVec Ideal S256x2048 .f32) (v47 v51 : FVec Ideal S1x256 .f32) (a b : Fin 256) :
    k0_pay5 (F := Ideal) v0 v1 v2 zi zf v29 v30 v34 v38 v42 v43 v47 v51 (ix3 (0 : Fin 1) a b)
      = hiddenNew (pre (row v0 a) (row v42 b) (row v1 a) (row v43 b) (v47 (ix2 (0 : Fin 1) b)) (v51 (ix2 (0 : Fin 1) b)))
          (k0_pay4 (F := Ideal) v0 v1 v2 zi zf v29 v30 v34 v38 (ix2 a b)) := by
  have e := gate_apply v0 v1 v42 v43 v47 v51 a b
  unfold k0_pay5
  rw [shapeCast_ab_1ab_apply (a := 256) (b := 256)]
  unfold hiddenNew
  rw [← e]
  rfl

/-- The new cell tile, stored with a leading unit axis, at `(0, a, b)`. -/
theorem pay1_apply (v61 : FVec Ideal S256x256 .f32) (a b : Fin 256) :
    k0_pay1 (F := Ideal) v61 (ix3 (0 : Fin 1) a b) = v61 (ix2 a b) := by
  unfold k0_pay1
  rw [shapeCast_ab_1ab_apply (a := 256) (b := 256)]

/-- Entry `(1, a, b)` of the output tile lies in the second store's rectangle, at its `(0, a, b)`. -/
theorem plane1_emb (a b : Fin 256) : (ix3 (1 : Fin 2) a b : S2x256x256.Idx) = r0_4.emb (ix3 (0 : Fin 1) a b) := by
  funext d; apply Fin.ext
  match d with
  | ⟨0, _⟩ => rfl
  | ⟨1, _⟩ => show a.val = 0 + 1 * a.val; omega
  | ⟨2, _⟩ => show b.val = 0 + 1 * b.val; omega

/-- Entry `(0, a, b)` of the output tile lies in the first store's rectangle, at its `(0, a, b)`. -/
theorem plane0_emb (a b : Fin 256) : (ix3 (0 : Fin 2) a b : S2x256x256.Idx) = r0_3.emb (ix3 (0 : Fin 1) a b) := by
  funext d; apply Fin.ext
  match d with
  | ⟨0, _⟩ => rfl
  | ⟨1, _⟩ => show a.val = 0 + 1 * a.val; omega
  | ⟨2, _⟩ => show b.val = 0 + 1 * b.val; omega

/-- and not in the second store's, whose leading coordinate is 1. -/
theorem plane0_not_mem (a b : Fin 256) : (ix3 (0 : Fin 2) a b : S2x256x256.Idx) ∉ r0_4.set := by
  rw [Rect.mem_set_unit]
  intro h
  have h0 : 1 ≤ 0 := (h 0).1
  omega

/-- PLANE 1 of the tile the body leaves, at `(a, b)`: the new cell entry of the tiles' rows. -/
theorem out_cell (x0 x1 : FVec Ideal S256x2048 .f32) (x2 : FVec Ideal S256x256 .f32) (x3 x4 x5 x6 x7 x8 x9 x10 : FVec Ideal S256x2048 .f32) (x11 x12 x13 x14 x15 x16 x17 x18 : FVec Ideal S1x256 .f32) (a b : Fin 256) :
    out0_19 (F := Ideal) x0 x1 x2 x3 x4 x5 x6 x7 x8 x9 x10 x11 x12 x13 x14 x15 x16 x17 x18 (ix3 (1 : Fin 2) a b) = (cellNew (pre (row x0 a) (row x3 b) (row x1 a) (row x7 b) (x11 (ix2 (0 : Fin 1) b)) (x15 (ix2 (0 : Fin 1) b))) (pre (row x0 a) (row x4 b) (row x1 a) (row x8 b) (x12 (ix2 (0 : Fin 1) b)) (x16 (ix2 (0 : Fin 1) b))) (pre (row x0 a) (row x5 b) (row x1 a) (row x9 b) (x13 (ix2 (0 : Fin 1) b)) (x17 (ix2 (0 : Fin 1) b))) (x2 (ix2 a b))) := by
  rw [plane1_emb]
  unfold out0_19
  rw [View.canon_cons_emb]
  simp only [View.ld_unit_zero (S := S256x2048) zero_off2, View.ld_unit_zero (S := S256x256) zero_off2, View.ld_unit_zero (S := S1x256) zero_off2]
  rw [pay1_apply, pay4_apply, pay2_apply, pay3_apply]

/-- PLANE 0 of the tile the body leaves, at `(a, b)`: the new hidden entry of the tiles' rows. -/
theorem out_hidden (x0 x1 : FVec Ideal S256x2048 .f32) (x2 : FVec Ideal S256x256 .f32) (x3 x4 x5 x6 x7 x8 x9 x10 : FVec Ideal S256x2048 .f32) (x11 x12 x13 x14 x15 x16 x17 x18 : FVec Ideal S1x256 .f32) (a b : Fin 256) :
    out0_19 (F := Ideal) x0 x1 x2 x3 x4 x5 x6 x7 x8 x9 x10 x11 x12 x13 x14 x15 x16 x17 x18 (ix3 (0 : Fin 2) a b)
      = hiddenNew (pre (row x0 a) (row x6 b) (row x1 a) (row x10 b) (x14 (ix2 (0 : Fin 1) b)) (x18 (ix2 (0 : Fin 1) b))) (cellNew (pre (row x0 a) (row x3 b) (row x1 a) (row x7 b) (x11 (ix2 (0 : Fin 1) b)) (x15 (ix2 (0 : Fin 1) b))) (pre (row x0 a) (row x4 b) (row x1 a) (row x8 b) (x12 (ix2 (0 : Fin 1) b)) (x16 (ix2 (0 : Fin 1) b))) (pre (row x0 a) (row x5 b) (row x1 a) (row x9 b) (x13 (ix2 (0 : Fin 1) b)) (x17 (ix2 (0 : Fin 1) b))) (x2 (ix2 a b))) := by
  unfold out0_19
  refine (View.canon_cons_of_not_mem _ _ ?_).trans ?_
  · exact plane0_not_mem a b
  rw [plane0_emb, View.canon_cons_emb]
  simp only [View.ld_unit_zero (S := S256x2048) zero_off2, View.ld_unit_zero (S := S256x256) zero_off2, View.ld_unit_zero (S := S1x256) zero_off2]
  rw [pay5_apply, pay4_apply, pay2_apply, pay3_apply]

end Cert.KernelIdeal.Tile

end
-- ==== Proof.KernelWhole.lean ====
/-
  The kernel's result array is the cell step of its arguments.

  The grid has one point per 256 × 256 tile of the hidden state: point (hi, bi) computes rows 256·bi … 256·bi + 255 and
  columns 256·hi … 256·hi + 255 of both planes of the result. At that point the kernel is handed rows 256·bi … of x and of
  h, the matching tile of c, rows 256·hi … of every weight matrix and entries 256·hi … of every bias (the host having
  first given each bias vector a leading unit axis). A tile entry of the body's result is the cell step of rows of those
  tiles, and those rows are rows of the arguments: so what each point writes back is that point's tile of ONE function
  of the arguments, the cell step. The tiles cover the array (tile (i / 256, j / 256) holds entry (i, j)), so the array
  ends holding that function.
-/
import proofs.«109894_j17480516895199_2_alg».proof.Proof.Gen.KernelIdeal.Value
import proofs.«109894_j17480516895199_2_alg».proof.Proof.KernelTile
import Idealize.ShloMosaic.Lib.StableHlo.Run
import Idealize.ShloMosaic.Lib.ValueLayout

noncomputable section

namespace Cert.KernelIdeal.Whole

open Cert.KernelIdeal Cert.KernelIdeal.Gen Cert.KernelIdeal.Tile Cert.CellStep
open Idealize.ShloMosaic Idealize.ShloMosaic.TcCoe Idealize.ShloMosaic.ValueIdx Idealize.ShloMosaic.StableHlo Idealize.SL.Sem
open Idealize.ShloMosaic.Pipeline (Dat)

variable (m : (ℓ : Loc nD τ sig) → Buf (Elt Ideal) ℓ) (ρ : Dev nD → PrngReg)

/-- What the result array ends holding: the cell step of the argument arrays as launched. -/
def result (c : Dev nD) : S2x4096x2048.Idx → EReal :=
  step (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg9)) (m ((c : Thread nD τ).loc main_arg8)) (m ((c : Thread nD τ).loc main_arg10)) (m ((c : Thread nD τ).loc main_arg11)) (m ((c : Thread nD τ).loc main_arg13)) (m ((c : Thread nD τ).loc main_arg12)) (m ((c : Thread nD τ).loc main_arg14)) (m ((c : Thread nD τ).loc main_arg15)) (m ((c : Thread nD τ).loc main_arg17)) (m ((c : Thread nD τ).loc main_arg16)) (m ((c : Thread nD τ).loc main_arg18))

/-! ## How each window's tile moves with the result's, decided over the 128 grid points -/

/-- The row tiles of `x` and `h` move with the result's row tile and span every column. -/
theorem rows_facts : ∀ t : Fin cfg0.N, win0_0.index t (0 : Fin 2) = win0_19.index t (1 : Fin 3) ∧ win0_0.index t (1 : Fin 2) = 0
    ∧ win0_1.index t (0 : Fin 2) = win0_19.index t (1 : Fin 3) ∧ win0_1.index t (1 : Fin 2) = 0 :=
  (by decide +kernel : ∀ t : Fin grid0.N, _)

/-- The tile of `c` is the result's tile. -/
theorem cell_facts : ∀ t : Fin cfg0.N, win0_2.index t (0 : Fin 2) = win0_19.index t (1 : Fin 3)
    ∧ win0_2.index t (1 : Fin 2) = win0_19.index t (2 : Fin 3) :=
  (by decide +kernel : ∀ t : Fin grid0.N, _)

/-- The result's tile lies in plane block 0, row tile at most 15, column tile at most 7. -/
theorem out_facts : ∀ t : Fin cfg0.N, win0_19.index t (0 : Fin 3) = 0 ∧ win0_19.index t (1 : Fin 3) ≤ 15 ∧ win0_19.index t (2 : Fin 3) ≤ 7 :=
  (by decide +kernel : ∀ t : Fin grid0.N, _)

/-- Every tile of the result is some grid point's. -/
theorem out_onto : ∀ (q1 : Fin 16) (q2 : Fin 8), ∃ t : Fin cfg0.N, win0_19.index t = ![0, q1.val, q2.val] :=
  (by decide +kernel : ∀ (q1 : Fin 16) (q2 : Fin 8), ∃ t : Fin grid0.N, win0_19.index t = ![0, q1.val, q2.val])

/-- Window 3's row tile (a weight matrix's rows, one per hidden unit) moves with the result's column tile and spans every column. -/
theorem weight_facts3 : ∀ t : Fin cfg0.N, win0_3.index t (0 : Fin 2) = win0_19.index t (2 : Fin 3) ∧ win0_3.index t (1 : Fin 2) = 0 :=
  (by decide +kernel : ∀ t : Fin grid0.N, _)

/-- Window 4's row tile (a weight matrix's rows, one per hidden unit) moves with the result's column tile and spans every column. -/
theorem weight_facts4 : ∀ t : Fin cfg0.N, win0_4.index t (0 : Fin 2) = win0_19.index t (2 : Fin 3) ∧ win0_4.index t (1 : Fin 2) = 0 :=
  (by decide +kernel : ∀ t : Fin grid0.N, _)

/-- Window 5's row tile (a weight matrix's rows, one per hidden unit) moves with the result's column tile and spans every column. -/
theorem weight_facts5 : ∀ t : Fin cfg0.N, win0_5.index t (0 : Fin 2) = win0_19.index t (2 : Fin 3) ∧ win0_5.index t (1 : Fin 2) = 0 :=
  (by decide +kernel : ∀ t : Fin grid0.N, _)

/-- Window 6's row tile (a weight matrix's rows, one per hidden unit) moves with the result's column tile and spans every column. -/
theorem weight_facts6 : ∀ t : Fin cfg0.N, win0_6.index t (0 : Fin 2) = win0_19.index t (2 : Fin 3) ∧ win0_6.index t (1 : Fin 2) = 0 :=
  (by decide +kernel : ∀ t : Fin grid0.N, _)

/-- Window 7's row tile (a weight matrix's rows, one per hidden unit) moves with the result's column tile and spans every column. -/
theorem weight_facts7 : ∀ t : Fin cfg0.N, win0_7.index t (0 : Fin 2) = win0_19.index t (2 : Fin 3) ∧ win0_7.index t (1 : Fin 2) = 0 :=
  (by decide +kernel : ∀ t : Fin grid0.N, _)

/-- Window 8's row tile (a weight matrix's rows, one per hidden unit) moves with the result's column tile and spans every column. -/
theorem weight_facts8 : ∀ t : Fin cfg0.N, win0_8.index t (0 : Fin 2) = win0_19.index t (2 : Fin 3) ∧ win0_8.index t (1 : Fin 2) = 0 :=
  (by decide +kernel : ∀ t : Fin grid0.N, _)

/-- Window 9's row tile (a weight matrix's rows, one per hidden unit) moves with the result's column tile and spans every column. -/
theorem weight_facts9 : ∀ t : Fin cfg0.N, win0_9.index t (0 : Fin 2) = win0_19.index t (2 : Fin 3) ∧ win0_9.index t (1 : Fin 2) = 0 :=
  (by decide +kernel : ∀ t : Fin grid0.N, _)

/-- Window 10's row tile (a weight matrix's rows, one per hidden unit) moves with the result's column tile and spans every column. -/
theorem weight_facts10 : ∀ t : Fin cfg0.N, win0_10.index t (0 : Fin 2) = win0_19.index t (2 : Fin 3) ∧ win0_10.index t (1 : Fin 2) = 0 :=
  (by decide +kernel : ∀ t : Fin grid0.N, _)

/-- Window 11's tile (a bias row's entries, one per hidden unit) moves with the result's column tile. -/
theorem bias_facts11 : ∀ t : Fin cfg0.N, win0_11.index t (0 : Fin 2) = 0 ∧ win0_11.index t (1 : Fin 2) = win0_19.index t (2 : Fin 3) :=
  (by decide +kernel : ∀ t : Fin grid0.N, _)

/-- Window 12's tile (a bias row's entries, one per hidden unit) moves with the result's column tile. -/
theorem bias_facts12 : ∀ t : Fin cfg0.N, win0_12.index t (0 : Fin 2) = 0 ∧ win0_12.index t (1 : Fin 2) = win0_19.index t (2 : Fin 3) :=
  (by decide +kernel : ∀ t : Fin grid0.N, _)

/-- Window 13's tile (a bias row's entries, one per hidden unit) moves with the result's column tile. -/
theorem bias_facts13 : ∀ t : Fin cfg0.N, win0_13.index t (0 : Fin 2) = 0 ∧ win0_13.index t (1 : Fin 2) = win0_19.index t (2 : Fin 3) :=
  (by decide +kernel : ∀ t : Fin grid0.N, _)

/-- Window 14's tile (a bias row's entries, one per hidden unit) moves with the result's column tile. -/
theorem bias_facts14 : ∀ t : Fin cfg0.N, win0_14.index t (0 : Fin 2) = 0 ∧ win0_14.index t (1 : Fin 2) = win0_19.index t (2 : Fin 3) :=
  (by decide +kernel : ∀ t : Fin grid0.N, _)

/-- Window 15's tile (a bias row's entries, one per hidden unit) moves with the result's column tile. -/
theorem bias_facts15 : ∀ t : Fin cfg0.N, win0_15.index t (0 : Fin 2) = 0 ∧ win0_15.index t (1 : Fin 2) = win0_19.index t (2 : Fin 3) :=
  (by decide +kernel : ∀ t : Fin grid0.N, _)

/-- Window 16's tile (a bias row's entries, one per hidden unit) moves with the result's column tile. -/
theorem bias_facts16 : ∀ t : Fin cfg0.N, win0_16.index t (0 : Fin 2) = 0 ∧ win0_16.index t (1 : Fin 2) = win0_19.index t (2 : Fin 3) :=
  (by decide +kernel : ∀ t : Fin grid0.N, _)

/-- Window 17's tile (a bias row's entries, one per hidden unit) moves with the result's column tile. -/
theorem bias_facts17 : ∀ t : Fin cfg0.N, win0_17.index t (0 : Fin 2) = 0 ∧ win0_17.index t (1 : Fin 2) = win0_19.index t (2 : Fin 3) :=
  (by decide +kernel : ∀ t : Fin grid0.N, _)

/-- Window 18's tile (a bias row's entries, one per hidden unit) moves with the result's column tile. -/
theorem bias_facts18 : ∀ t : Fin cfg0.N, win0_18.index t (0 : Fin 2) = 0 ∧ win0_18.index t (1 : Fin 2) = win0_19.index t (2 : Fin 3) :=
  (by decide +kernel : ∀ t : Fin grid0.N, _)

/-! ## The bias rows the region finds -/

/-- The host gives the bias vector `main_arg4` a leading unit axis before the kernel runs: the row's entry `(0, q)` is the vector's entry `q`. -/
theorem row0_at (c : Dev nD) (q : Fin 2048) : V m c main_v0 (ix2 (0 : Fin 1) q) = (m ((c : Thread nD τ).loc main_arg4)) (ix1 q) := by
  have e : (V m c main_v0 : S1x2048.Idx → EReal)
      = fun i => shapeCast S1x2048 (m ((c : Thread nD τ).loc main_arg4)) shapeCasts_S2048_S1x2048 i := by
    dsimp only [V, hostOps0]; after_results; rfl
  rw [e]
  exact shapeCast_a_1a_apply (a := 2048) _ _ 0 q

/-- The host gives the bias vector `main_arg8` a leading unit axis before the kernel runs: the row's entry `(0, q)` is the vector's entry `q`. -/
theorem row1_at (c : Dev nD) (q : Fin 2048) : V m c main_v1 (ix2 (0 : Fin 1) q) = (m ((c : Thread nD τ).loc main_arg8)) (ix1 q) := by
  have e : (V m c main_v1 : S1x2048.Idx → EReal)
      = fun i => shapeCast S1x2048 (m ((c : Thread nD τ).loc main_arg8)) shapeCasts_S2048_S1x2048 i := by
    dsimp only [V, hostOps0]; after_results; rfl
  rw [e]
  exact shapeCast_a_1a_apply (a := 2048) _ _ 0 q

/-- The host gives the bias vector `main_arg12` a leading unit axis before the kernel runs: the row's entry `(0, q)` is the vector's entry `q`. -/
theorem row2_at (c : Dev nD) (q : Fin 2048) : V m c main_v2 (ix2 (0 : Fin 1) q) = (m ((c : Thread nD τ).loc main_arg12)) (ix1 q) := by
  have e : (V m c main_v2 : S1x2048.Idx → EReal)
      = fun i => shapeCast S1x2048 (m ((c : Thread nD τ).loc main_arg12)) shapeCasts_S2048_S1x2048 i := by
    dsimp only [V, hostOps0]; after_results; rfl
  rw [e]
  exact shapeCast_a_1a_apply (a := 2048) _ _ 0 q

/-- The host gives the bias vector `main_arg16` a leading unit axis before the kernel runs: the row's entry `(0, q)` is the vector's entry `q`. -/
theorem row3_at (c : Dev nD) (q : Fin 2048) : V m c main_v3 (ix2 (0 : Fin 1) q) = (m ((c : Thread nD τ).loc main_arg16)) (ix1 q) := by
  have e : (V m c main_v3 : S1x2048.Idx → EReal)
      = fun i => shapeCast S1x2048 (m ((c : Thread nD τ).loc main_arg16)) shapeCasts_S2048_S1x2048 i := by
    dsimp only [V, hostOps0]; after_results; rfl
  rw [e]
  exact shapeCast_a_1a_apply (a := 2048) _ _ 0 q

/-- The host gives the bias vector `main_arg6` a leading unit axis before the kernel runs: the row's entry `(0, q)` is the vector's entry `q`. -/
theorem row4_at (c : Dev nD) (q : Fin 2048) : V m c main_v4 (ix2 (0 : Fin 1) q) = (m ((c : Thread nD τ).loc main_arg6)) (ix1 q) := by
  have e : (V m c main_v4 : S1x2048.Idx → EReal)
      = fun i => shapeCast S1x2048 (m ((c : Thread nD τ).loc main_arg6)) shapeCasts_S2048_S1x2048 i := by
    dsimp only [V, hostOps0]; after_results; rfl
  rw [e]
  exact shapeCast_a_1a_apply (a := 2048) _ _ 0 q

/-- The host gives the bias vector `main_arg10` a leading unit axis before the kernel runs: the row's entry `(0, q)` is the vector's entry `q`. -/
theorem row5_at (c : Dev nD) (q : Fin 2048) : V m c main_v5 (ix2 (0 : Fin 1) q) = (m ((c : Thread nD τ).loc main_arg10)) (ix1 q) := by
  have e : (V m c main_v5 : S1x2048.Idx → EReal)
      = fun i => shapeCast S1x2048 (m ((c : Thread nD τ).loc main_arg10)) shapeCasts_S2048_S1x2048 i := by
    dsimp only [V, hostOps0]; after_results; rfl
  rw [e]
  exact shapeCast_a_1a_apply (a := 2048) _ _ 0 q

/-- The host gives the bias vector `main_arg14` a leading unit axis before the kernel runs: the row's entry `(0, q)` is the vector's entry `q`. -/
theorem row6_at (c : Dev nD) (q : Fin 2048) : V m c main_v6 (ix2 (0 : Fin 1) q) = (m ((c : Thread nD τ).loc main_arg14)) (ix1 q) := by
  have e : (V m c main_v6 : S1x2048.Idx → EReal)
      = fun i => shapeCast S1x2048 (m ((c : Thread nD τ).loc main_arg14)) shapeCasts_S2048_S1x2048 i := by
    dsimp only [V, hostOps0]; after_results; rfl
  rw [e]
  exact shapeCast_a_1a_apply (a := 2048) _ _ 0 q

/-- The host gives the bias vector `main_arg18` a leading unit axis before the kernel runs: the row's entry `(0, q)` is the vector's entry `q`. -/
theorem row7_at (c : Dev nD) (q : Fin 2048) : V m c main_v7 (ix2 (0 : Fin 1) q) = (m ((c : Thread nD τ).loc main_arg18)) (ix1 q) := by
  have e : (V m c main_v7 : S1x2048.Idx → EReal)
      = fun i => shapeCast S1x2048 (m ((c : Thread nD τ).loc main_arg18)) shapeCasts_S2048_S1x2048 i := by
    dsimp only [V, hostOps0]; after_results; rfl
  rw [e]
  exact shapeCast_a_1a_apply (a := 2048) _ _ 0 q

/-! ## A window's block at a point, read at an entry of the argument -/

/-- Entry `(a, k)` of window 0's block at point `t` is the argument's entry `(P, k)`, `P` the block's row offset plus `a`. -/
theorem blk0_at (c : Dev nD) (t : Fin cfg0.N) (a : Fin 256) (k : Fin 2048) (P : Fin 4096)
    (hP : P.val = win0_19.index t (1 : Fin 3) * 256 + a.val) :
    iblk m c 0 t (ix2 a k) = (m ((c : Thread nD τ).loc main_arg0)) (ix2 P k) := by
  show V m c main_arg0 (((cfg0.win 0).blk t).view.emb (ix2 a k)) = _
  rw [V_main_arg0]
  obtain ⟨e0, e1, e2, e3⟩ := rows_facts t
  refine congrArg _ (funext fun ax => Fin.ext ?_)
  match ax with
  | ⟨0, _⟩ => show win0_0.index t (0 : Fin 2) * 256 + 1 * a.val = P.val; omega
  | ⟨1, _⟩ => show win0_0.index t (1 : Fin 2) * 2048 + 1 * k.val = k.val; omega

/-- Entry `(a, k)` of window 1's block at point `t` is the argument's entry `(P, k)`, `P` the block's row offset plus `a`. -/
theorem blk1_at (c : Dev nD) (t : Fin cfg0.N) (a : Fin 256) (k : Fin 2048) (P : Fin 4096)
    (hP : P.val = win0_19.index t (1 : Fin 3) * 256 + a.val) :
    iblk m c 1 t (ix2 a k) = (m ((c : Thread nD τ).loc main_arg1)) (ix2 P k) := by
  show V m c main_arg1 (((cfg0.win 1).blk t).view.emb (ix2 a k)) = _
  rw [V_main_arg1]
  obtain ⟨e0, e1, e2, e3⟩ := rows_facts t
  refine congrArg _ (funext fun ax => Fin.ext ?_)
  match ax with
  | ⟨0, _⟩ => show win0_1.index t (0 : Fin 2) * 256 + 1 * a.val = P.val; omega
  | ⟨1, _⟩ => show win0_1.index t (1 : Fin 2) * 2048 + 1 * k.val = k.val; omega

/-- Entry `(a, b)` of the block of `c` at point `t` is the argument's entry `(P, Q)`. -/
theorem blk2_at (c : Dev nD) (t : Fin cfg0.N) (a b : Fin 256) (P : Fin 4096) (Q : Fin 2048)
    (hP : P.val = win0_19.index t (1 : Fin 3) * 256 + a.val) (hQ : Q.val = win0_19.index t (2 : Fin 3) * 256 + b.val) :
    iblk m c 2 t (ix2 a b) = (m ((c : Thread nD τ).loc main_arg2)) (ix2 P Q) := by
  show V m c main_arg2 (((cfg0.win 2).blk t).view.emb (ix2 a b)) = _
  rw [V_main_arg2]
  obtain ⟨e0, e1⟩ := cell_facts t
  refine congrArg _ (funext fun ax => Fin.ext ?_)
  match ax with
  | ⟨0, _⟩ => show win0_2.index t (0 : Fin 2) * 256 + 1 * a.val = P.val; omega
  | ⟨1, _⟩ => show win0_2.index t (1 : Fin 2) * 256 + 1 * b.val = Q.val; omega

/-- Entry `(b, k)` of window 3's block at point `t` is the weight matrix's entry `(Q, k)`, `Q` the block's row offset plus `b`. -/
theorem blk3_at (c : Dev nD) (t : Fin cfg0.N) (b : Fin 256) (k : Fin 2048) (Q : Fin 2048)
    (hQ : Q.val = win0_19.index t (2 : Fin 3) * 256 + b.val) :
    iblk m c 3 t (ix2 b k) = (m ((c : Thread nD τ).loc main_arg3)) (ix2 Q k) := by
  show V m c main_arg3 (((cfg0.win 3).blk t).view.emb (ix2 b k)) = _
  rw [V_main_arg3]
  obtain ⟨e0, e1⟩ := weight_facts3 t
  refine congrArg _ (funext fun ax => Fin.ext ?_)
  match ax with
  | ⟨0, _⟩ => show win0_3.index t (0 : Fin 2) * 256 + 1 * b.val = Q.val; omega
  | ⟨1, _⟩ => show win0_3.index t (1 : Fin 2) * 2048 + 1 * k.val = k.val; omega

/-- Entry `(b, k)` of window 4's block at point `t` is the weight matrix's entry `(Q, k)`, `Q` the block's row offset plus `b`. -/
theorem blk4_at (c : Dev nD) (t : Fin cfg0.N) (b : Fin 256) (k : Fin 2048) (Q : Fin 2048)
    (hQ : Q.val = win0_19.index t (2 : Fin 3) * 256 + b.val) :
    iblk m c 4 t (ix2 b k) = (m ((c : Thread nD τ).loc main_arg7)) (ix2 Q k) := by
  show V m c main_arg7 (((cfg0.win 4).blk t).view.emb (ix2 b k)) = _
  rw [V_main_arg7]
  obtain ⟨e0, e1⟩ := weight_facts4 t
  refine congrArg _ (funext fun ax => Fin.ext ?_)
  match ax with
  | ⟨0, _⟩ => show win0_4.index t (0 : Fin 2) * 256 + 1 * b.val = Q.val; omega
  | ⟨1, _⟩ => show win0_4.index t (1 : Fin 2) * 2048 + 1 * k.val = k.val; omega

/-- Entry `(b, k)` of window 5's block at point `t` is the weight matrix's entry `(Q, k)`, `Q` the block's row offset plus `b`. -/
theorem blk5_at (c : Dev nD) (t : Fin cfg0.N) (b : Fin 256) (k : Fin 2048) (Q : Fin 2048)
    (hQ : Q.val = win0_19.index t (2 : Fin 3) * 256 + b.val) :
    iblk m c 5 t (ix2 b k) = (m ((c : Thread nD τ).loc main_arg11)) (ix2 Q k) := by
  show V m c main_arg11 (((cfg0.win 5).blk t).view.emb (ix2 b k)) = _
  rw [V_main_arg11]
  obtain ⟨e0, e1⟩ := weight_facts5 t
  refine congrArg _ (funext fun ax => Fin.ext ?_)
  match ax with
  | ⟨0, _⟩ => show win0_5.index t (0 : Fin 2) * 256 + 1 * b.val = Q.val; omega
  | ⟨1, _⟩ => show win0_5.index t (1 : Fin 2) * 2048 + 1 * k.val = k.val; omega

/-- Entry `(b, k)` of window 6's block at point `t` is the weight matrix's entry `(Q, k)`, `Q` the block's row offset plus `b`. -/
theorem blk6_at (c : Dev nD) (t : Fin cfg0.N) (b : Fin 256) (k : Fin 2048) (Q : Fin 2048)
    (hQ : Q.val = win0_19.index t (2 : Fin 3) * 256 + b.val) :
    iblk m c 6 t (ix2 b k) = (m ((c : Thread nD τ).loc main_arg15)) (ix2 Q k) := by
  show V m c main_arg15 (((cfg0.win 6).blk t).view.emb (ix2 b k)) = _
  rw [V_main_arg15]
  obtain ⟨e0, e1⟩ := weight_facts6 t
  refine congrArg _ (funext fun ax => Fin.ext ?_)
  match ax with
  | ⟨0, _⟩ => show win0_6.index t (0 : Fin 2) * 256 + 1 * b.val = Q.val; omega
  | ⟨1, _⟩ => show win0_6.index t (1 : Fin 2) * 2048 + 1 * k.val = k.val; omega

/-- Entry `(b, k)` of window 7's block at point `t` is the weight matrix's entry `(Q, k)`, `Q` the block's row offset plus `b`. -/
theorem blk7_at (c : Dev nD) (t : Fin cfg0.N) (b : Fin 256) (k : Fin 2048) (Q : Fin 2048)
    (hQ : Q.val = win0_19.index t (2 : Fin 3) * 256 + b.val) :
    iblk m c 7 t (ix2 b k) = (m ((c : Thread nD τ).loc main_arg5)) (ix2 Q k) := by
  show V m c main_arg5 (((cfg0.win 7).blk t).view.emb (ix2 b k)) = _
  rw [V_main_arg5]
  obtain ⟨e0, e1⟩ := weight_facts7 t
  refine congrArg _ (funext fun ax => Fin.ext ?_)
  match ax with
  | ⟨0, _⟩ => show win0_7.index t (0 : Fin 2) * 256 + 1 * b.val = Q.val; omega
  | ⟨1, _⟩ => show win0_7.index t (1 : Fin 2) * 2048 + 1 * k.val = k.val; omega

/-- Entry `(b, k)` of window 8's block at point `t` is the weight matrix's entry `(Q, k)`, `Q` the block's row offset plus `b`. -/
theorem blk8_at (c : Dev nD) (t : Fin cfg0.N) (b : Fin 256) (k : Fin 2048) (Q : Fin 2048)
    (hQ : Q.val = win0_19.index t (2 : Fin 3) * 256 + b.val) :
    iblk m c 8 t (ix2 b k) = (m ((c : Thread nD τ).loc main_arg9)) (ix2 Q k) := by
  show V m c main_arg9 (((cfg0.win 8).blk t).view.emb (ix2 b k)) = _
  rw [V_main_arg9]
  obtain ⟨e0, e1⟩ := weight_facts8 t
  refine congrArg _ (funext fun ax => Fin.ext ?_)
  match ax with
  | ⟨0, _⟩ => show win0_8.index t (0 : Fin 2) * 256 + 1 * b.val = Q.val; omega
  | ⟨1, _⟩ => show win0_8.index t (1 : Fin 2) * 2048 + 1 * k.val = k.val; omega

/-- Entry `(b, k)` of window 9's block at point `t` is the weight matrix's entry `(Q, k)`, `Q` the block's row offset plus `b`. -/
theorem blk9_at (c : Dev nD) (t : Fin cfg0.N) (b : Fin 256) (k : Fin 2048) (Q : Fin 2048)
    (hQ : Q.val = win0_19.index t (2 : Fin 3) * 256 + b.val) :
    iblk m c 9 t (ix2 b k) = (m ((c : Thread nD τ).loc main_arg13)) (ix2 Q k) := by
  show V m c main_arg13 (((cfg0.win 9).blk t).view.emb (ix2 b k)) = _
  rw [V_main_arg13]
  obtain ⟨e0, e1⟩ := weight_facts9 t
  refine congrArg _ (funext fun ax => Fin.ext ?_)
  match ax with
  | ⟨0, _⟩ => show win0_9.index t (0 : Fin 2) * 256 + 1 * b.val = Q.val; omega
  | ⟨1, _⟩ => show win0_9.index t (1 : Fin 2) * 2048 + 1 * k.val = k.val; omega

/-- Entry `(b, k)` of window 10's block at point `t` is the weight matrix's entry `(Q, k)`, `Q` the block's row offset plus `b`. -/
theorem blk10_at (c : Dev nD) (t : Fin cfg0.N) (b : Fin 256) (k : Fin 2048) (Q : Fin 2048)
    (hQ : Q.val = win0_19.index t (2 : Fin 3) * 256 + b.val) :
    iblk m c 10 t (ix2 b k) = (m ((c : Thread nD τ).loc main_arg17)) (ix2 Q k) := by
  show V m c main_arg17 (((cfg0.win 10).blk t).view.emb (ix2 b k)) = _
  rw [V_main_arg17]
  obtain ⟨e0, e1⟩ := weight_facts10 t
  refine congrArg _ (funext fun ax => Fin.ext ?_)
  match ax with
  | ⟨0, _⟩ => show win0_10.index t (0 : Fin 2) * 256 + 1 * b.val = Q.val; omega
  | ⟨1, _⟩ => show win0_10.index t (1 : Fin 2) * 2048 + 1 * k.val = k.val; omega

/-- Entry `(0, b)` of window 11's block at point `t` is the bias vector's entry `Q`, `Q` the block's offset plus `b`. -/
theorem blk11_at (c : Dev nD) (t : Fin cfg0.N) (b : Fin 256) (Q : Fin 2048)
    (hQ : Q.val = win0_19.index t (2 : Fin 3) * 256 + b.val) :
    iblk m c 11 t (ix2 (0 : Fin 1) b) = (m ((c : Thread nD τ).loc main_arg4)) (ix1 Q) := by
  show V m c main_v0 (((cfg0.win 11).blk t).view.emb (ix2 (0 : Fin 1) b)) = _
  obtain ⟨e0, e1⟩ := bias_facts11 t
  have he : ((cfg0.win 11).blk t).view.emb (ix2 (0 : Fin 1) b) = ix2 (0 : Fin 1) Q := funext fun ax => Fin.ext (by
    match ax with
    | ⟨0, _⟩ => show win0_11.index t (0 : Fin 2) * 1 + 1 * 0 = 0; omega
    | ⟨1, _⟩ => show win0_11.index t (1 : Fin 2) * 256 + 1 * b.val = Q.val; omega)
  rw [he]
  exact row0_at m c Q

/-- Entry `(0, b)` of window 12's block at point `t` is the bias vector's entry `Q`, `Q` the block's offset plus `b`. -/
theorem blk12_at (c : Dev nD) (t : Fin cfg0.N) (b : Fin 256) (Q : Fin 2048)
    (hQ : Q.val = win0_19.index t (2 : Fin 3) * 256 + b.val) :
    iblk m c 12 t (ix2 (0 : Fin 1) b) = (m ((c : Thread nD τ).loc main_arg8)) (ix1 Q) := by
  show V m c main_v1 (((cfg0.win 12).blk t).view.emb (ix2 (0 : Fin 1) b)) = _
  obtain ⟨e0, e1⟩ := bias_facts12 t
  have he : ((cfg0.win 12).blk t).view.emb (ix2 (0 : Fin 1) b) = ix2 (0 : Fin 1) Q := funext fun ax => Fin.ext (by
    match ax with
    | ⟨0, _⟩ => show win0_12.index t (0 : Fin 2) * 1 + 1 * 0 = 0; omega
    | ⟨1, _⟩ => show win0_12.index t (1 : Fin 2) * 256 + 1 * b.val = Q.val; omega)
  rw [he]
  exact row1_at m c Q

/-- Entry `(0, b)` of window 13's block at point `t` is the bias vector's entry `Q`, `Q` the block's offset plus `b`. -/
theorem blk13_at (c : Dev nD) (t : Fin cfg0.N) (b : Fin 256) (Q : Fin 2048)
    (hQ : Q.val = win0_19.index t (2 : Fin 3) * 256 + b.val) :
    iblk m c 13 t (ix2 (0 : Fin 1) b) = (m ((c : Thread nD τ).loc main_arg12)) (ix1 Q) := by
  show V m c main_v2 (((cfg0.win 13).blk t).view.emb (ix2 (0 : Fin 1) b)) = _
  obtain ⟨e0, e1⟩ := bias_facts13 t
  have he : ((cfg0.win 13).blk t).view.emb (ix2 (0 : Fin 1) b) = ix2 (0 : Fin 1) Q := funext fun ax => Fin.ext (by
    match ax with
    | ⟨0, _⟩ => show win0_13.index t (0 : Fin 2) * 1 + 1 * 0 = 0; omega
    | ⟨1, _⟩ => show win0_13.index t (1 : Fin 2) * 256 + 1 * b.val = Q.val; omega)
  rw [he]
  exact row2_at m c Q

/-- Entry `(0, b)` of window 14's block at point `t` is the bias vector's entry `Q`, `Q` the block's offset plus `b`. -/
theorem blk14_at (c : Dev nD) (t : Fin cfg0.N) (b : Fin 256) (Q : Fin 2048)
    (hQ : Q.val = win0_19.index t (2 : Fin 3) * 256 + b.val) :
    iblk m c 14 t (ix2 (0 : Fin 1) b) = (m ((c : Thread nD τ).loc main_arg16)) (ix1 Q) := by
  show V m c main_v3 (((cfg0.win 14).blk t).view.emb (ix2 (0 : Fin 1) b)) = _
  obtain ⟨e0, e1⟩ := bias_facts14 t
  have he : ((cfg0.win 14).blk t).view.emb (ix2 (0 : Fin 1) b) = ix2 (0 : Fin 1) Q := funext fun ax => Fin.ext (by
    match ax with
    | ⟨0, _⟩ => show win0_14.index t (0 : Fin 2) * 1 + 1 * 0 = 0; omega
    | ⟨1, _⟩ => show win0_14.index t (1 : Fin 2) * 256 + 1 * b.val = Q.val; omega)
  rw [he]
  exact row3_at m c Q

/-- Entry `(0, b)` of window 15's block at point `t` is the bias vector's entry `Q`, `Q` the block's offset plus `b`. -/
theorem blk15_at (c : Dev nD) (t : Fin cfg0.N) (b : Fin 256) (Q : Fin 2048)
    (hQ : Q.val = win0_19.index t (2 : Fin 3) * 256 + b.val) :
    iblk m c 15 t (ix2 (0 : Fin 1) b) = (m ((c : Thread nD τ).loc main_arg6)) (ix1 Q) := by
  show V m c main_v4 (((cfg0.win 15).blk t).view.emb (ix2 (0 : Fin 1) b)) = _
  obtain ⟨e0, e1⟩ := bias_facts15 t
  have he : ((cfg0.win 15).blk t).view.emb (ix2 (0 : Fin 1) b) = ix2 (0 : Fin 1) Q := funext fun ax => Fin.ext (by
    match ax with
    | ⟨0, _⟩ => show win0_15.index t (0 : Fin 2) * 1 + 1 * 0 = 0; omega
    | ⟨1, _⟩ => show win0_15.index t (1 : Fin 2) * 256 + 1 * b.val = Q.val; omega)
  rw [he]
  exact row4_at m c Q

/-- Entry `(0, b)` of window 16's block at point `t` is the bias vector's entry `Q`, `Q` the block's offset plus `b`. -/
theorem blk16_at (c : Dev nD) (t : Fin cfg0.N) (b : Fin 256) (Q : Fin 2048)
    (hQ : Q.val = win0_19.index t (2 : Fin 3) * 256 + b.val) :
    iblk m c 16 t (ix2 (0 : Fin 1) b) = (m ((c : Thread nD τ).loc main_arg10)) (ix1 Q) := by
  show V m c main_v5 (((cfg0.win 16).blk t).view.emb (ix2 (0 : Fin 1) b)) = _
  obtain ⟨e0, e1⟩ := bias_facts16 t
  have he : ((cfg0.win 16).blk t).view.emb (ix2 (0 : Fin 1) b) = ix2 (0 : Fin 1) Q := funext fun ax => Fin.ext (by
    match ax with
    | ⟨0, _⟩ => show win0_16.index t (0 : Fin 2) * 1 + 1 * 0 = 0; omega
    | ⟨1, _⟩ => show win0_16.index t (1 : Fin 2) * 256 + 1 * b.val = Q.val; omega)
  rw [he]
  exact row5_at m c Q

/-- Entry `(0, b)` of window 17's block at point `t` is the bias vector's entry `Q`, `Q` the block's offset plus `b`. -/
theorem blk17_at (c : Dev nD) (t : Fin cfg0.N) (b : Fin 256) (Q : Fin 2048)
    (hQ : Q.val = win0_19.index t (2 : Fin 3) * 256 + b.val) :
    iblk m c 17 t (ix2 (0 : Fin 1) b) = (m ((c : Thread nD τ).loc main_arg14)) (ix1 Q) := by
  show V m c main_v6 (((cfg0.win 17).blk t).view.emb (ix2 (0 : Fin 1) b)) = _
  obtain ⟨e0, e1⟩ := bias_facts17 t
  have he : ((cfg0.win 17).blk t).view.emb (ix2 (0 : Fin 1) b) = ix2 (0 : Fin 1) Q := funext fun ax => Fin.ext (by
    match ax with
    | ⟨0, _⟩ => show win0_17.index t (0 : Fin 2) * 1 + 1 * 0 = 0; omega
    | ⟨1, _⟩ => show win0_17.index t (1 : Fin 2) * 256 + 1 * b.val = Q.val; omega)
  rw [he]
  exact row6_at m c Q

/-- Entry `(0, b)` of window 18's block at point `t` is the bias vector's entry `Q`, `Q` the block's offset plus `b`. -/
theorem blk18_at (c : Dev nD) (t : Fin cfg0.N) (b : Fin 256) (Q : Fin 2048)
    (hQ : Q.val = win0_19.index t (2 : Fin 3) * 256 + b.val) :
    iblk m c 18 t (ix2 (0 : Fin 1) b) = (m ((c : Thread nD τ).loc main_arg18)) (ix1 Q) := by
  show V m c main_v7 (((cfg0.win 18).blk t).view.emb (ix2 (0 : Fin 1) b)) = _
  obtain ⟨e0, e1⟩ := bias_facts18 t
  have he : ((cfg0.win 18).blk t).view.emb (ix2 (0 : Fin 1) b) = ix2 (0 : Fin 1) Q := funext fun ax => Fin.ext (by
    match ax with
    | ⟨0, _⟩ => show win0_18.index t (0 : Fin 2) * 1 + 1 * 0 = 0; omega
    | ⟨1, _⟩ => show win0_18.index t (1 : Fin 2) * 256 + 1 * b.val = Q.val; omega)
  rw [he]
  exact row7_at m c Q

/-! ## What a point writes back, the cover, and the array -/

/-- WHAT POINT `t` WRITES BACK is block `t` of the cell step of the arguments. -/
theorem flushed_eq (c : Dev nD) (t : Fin cfg0.N) :
    (dats m 0 c).flushed 19 t = ((cfg0.win 19).blk t).view.read (Elt Ideal) (result m c) := by
  rw [Value.flushed19]
  funext y
  obtain ⟨s, a, b, rfl⟩ : ∃ (s : Fin 2) (a b : Fin 256), y = ix3 s a b := ⟨y 0, y 1, y 2, eq_ix3 y⟩
  obtain ⟨f0, f1, f2⟩ := out_facts t
  have hP : win0_19.index t (1 : Fin 3) * 256 + a.val < 4096 := by have := a.isLt; omega
  have hQ : win0_19.index t (2 : Fin 3) * 256 + b.val < 2048 := by have := b.isLt; omega
  obtain ⟨P, hPv⟩ : ∃ P : Fin 4096, P.val = win0_19.index t (1 : Fin 3) * 256 + a.val := ⟨⟨_, hP⟩, rfl⟩
  obtain ⟨Q, hQv⟩ : ∃ Q : Fin 2048, Q.val = win0_19.index t (2 : Fin 3) * 256 + b.val := ⟨⟨_, hQ⟩, rfl⟩
  have hemb : ((cfg0.win 19).blk t).view.emb (ix3 s a b) = ix3 s P Q := funext fun ax => Fin.ext (by
    match ax with
    | ⟨0, _⟩ => show win0_19.index t (0 : Fin 3) * 2 + 1 * s.val = s.val; omega
    | ⟨1, _⟩ => show win0_19.index t (1 : Fin 3) * 256 + 1 * a.val = P.val; omega
    | ⟨2, _⟩ => show win0_19.index t (2 : Fin 3) * 256 + 1 * b.val = Q.val; omega)
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix3 s a b) = result m c (((cfg0.win 19).blk t).view.emb (ix3 s a b))
  rw [hemb]
  have r0 : row (A := 256) (K := 2048) (iblk m c 0 t) a = row (m ((c : Thread nD τ).loc main_arg0)) P := funext fun k => blk0_at m c t a k P hPv
  have r1 : row (A := 256) (K := 2048) (iblk m c 1 t) a = row (m ((c : Thread nD τ).loc main_arg1)) P := funext fun k => blk1_at m c t a k P hPv
  have r3 : row (A := 256) (K := 2048) (iblk m c 3 t) b = row (m ((c : Thread nD τ).loc main_arg3)) Q := funext fun k => blk3_at m c t b k Q hQv
  have r4 : row (A := 256) (K := 2048) (iblk m c 4 t) b = row (m ((c : Thread nD τ).loc main_arg7)) Q := funext fun k => blk4_at m c t b k Q hQv
  have r5 : row (A := 256) (K := 2048) (iblk m c 5 t) b = row (m ((c : Thread nD τ).loc main_arg11)) Q := funext fun k => blk5_at m c t b k Q hQv
  have r6 : row (A := 256) (K := 2048) (iblk m c 6 t) b = row (m ((c : Thread nD τ).loc main_arg15)) Q := funext fun k => blk6_at m c t b k Q hQv
  have r7 : row (A := 256) (K := 2048) (iblk m c 7 t) b = row (m ((c : Thread nD τ).loc main_arg5)) Q := funext fun k => blk7_at m c t b k Q hQv
  have r8 : row (A := 256) (K := 2048) (iblk m c 8 t) b = row (m ((c : Thread nD τ).loc main_arg9)) Q := funext fun k => blk8_at m c t b k Q hQv
  have r9 : row (A := 256) (K := 2048) (iblk m c 9 t) b = row (m ((c : Thread nD τ).loc main_arg13)) Q := funext fun k => blk9_at m c t b k Q hQv
  have r10 : row (A := 256) (K := 2048) (iblk m c 10 t) b = row (m ((c : Thread nD τ).loc main_arg17)) Q := funext fun k => blk10_at m c t b k Q hQv
  have r2 : iblk m c 2 t (ix2 a b) = (m ((c : Thread nD τ).loc main_arg2)) (ix2 P Q) := blk2_at m c t a b P Q hPv hQv
  have r11 : iblk m c 11 t (ix2 (0 : Fin 1) b) = (m ((c : Thread nD τ).loc main_arg4)) (ix1 Q) := blk11_at m c t b Q hQv
  have r12 : iblk m c 12 t (ix2 (0 : Fin 1) b) = (m ((c : Thread nD τ).loc main_arg8)) (ix1 Q) := blk12_at m c t b Q hQv
  have r13 : iblk m c 13 t (ix2 (0 : Fin 1) b) = (m ((c : Thread nD τ).loc main_arg12)) (ix1 Q) := blk13_at m c t b Q hQv
  have r14 : iblk m c 14 t (ix2 (0 : Fin 1) b) = (m ((c : Thread nD τ).loc main_arg16)) (ix1 Q) := blk14_at m c t b Q hQv
  have r15 : iblk m c 15 t (ix2 (0 : Fin 1) b) = (m ((c : Thread nD τ).loc main_arg6)) (ix1 Q) := blk15_at m c t b Q hQv
  have r16 : iblk m c 16 t (ix2 (0 : Fin 1) b) = (m ((c : Thread nD τ).loc main_arg10)) (ix1 Q) := blk16_at m c t b Q hQv
  have r17 : iblk m c 17 t (ix2 (0 : Fin 1) b) = (m ((c : Thread nD τ).loc main_arg14)) (ix1 Q) := blk17_at m c t b Q hQv
  have r18 : iblk m c 18 t (ix2 (0 : Fin 1) b) = (m ((c : Thread nD τ).loc main_arg18)) (ix1 Q) := blk18_at m c t b Q hQv
  match s with
  | ⟨0, _⟩ =>
    refine (out_hidden (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) a b).trans ?_
    rw [r0, r1, r2, r3, r4, r5, r6, r7, r8, r9, r10, r11, r12, r13, r14, r15, r16, r17, r18]
    rfl
  | ⟨1, _⟩ =>
    refine (out_cell (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) a b).trans ?_
    rw [r0, r1, r2, r3, r4, r5, r7, r8, r9, r11, r12, r13, r15, r16, r17]
    rfl

/-- An index of the array is in point `t`'s block iff each coordinate is in the block's range on its axis. -/
theorem mem_blk (t : Fin cfg0.N) (i : S2x4096x2048.Idx) :
    i ∈ ((cfg0.win 19).blk t).view.set ↔ ∀ a : Fin 3, win0_19.index t a * S2x256x256.size a ≤ (i a).val
      ∧ (i a).val < win0_19.index t a * S2x256x256.size a + S2x256x256.size a := by
  show i ∈ ((View.whole main_v8).slice (win0_19.rect t)).set ↔ _
  rw [View.set_slice_whole, Rect.mem_set_unit]
  exact Iff.rfl

/-- Every entry `(s, i, j)` of the result lies in the block of the point whose tile is `(i / 256, j / 256)`. -/
theorem covered (i : S2x4096x2048.Idx) :
    ∃ t : Fin cfg0.N, (cfg0.win 19).flush t = true ∧ i ∈ ((cfg0.win 19).blk t).view.set := by
  have h0 : (i 0).val < 2 := (i 0).isLt
  have h1 : (i 1).val < 4096 := (i 1).isLt
  have h2 : (i 2).val < 2048 := (i 2).isLt
  obtain ⟨t, ht⟩ := out_onto ⟨(i 1).val / 256, by omega⟩ ⟨(i 2).val / 256, by omega⟩
  have q0 : win0_19.index t (0 : Fin 3) = 0 := congrFun ht 0
  have q1 : win0_19.index t (1 : Fin 3) = (i 1).val / 256 := congrFun ht 1
  have q2 : win0_19.index t (2 : Fin 3) = (i 2).val / 256 := congrFun ht 2
  refine ⟨t, flush0_19 t, ?_⟩
  rw [mem_blk]
  intro a
  match a with
  | ⟨0, _⟩ => show win0_19.index t (0 : Fin 3) * 2 ≤ (i 0).val ∧ (i 0).val < win0_19.index t (0 : Fin 3) * 2 + 2; omega
  | ⟨1, _⟩ => show win0_19.index t (1 : Fin 3) * 256 ≤ (i 1).val ∧ (i 1).val < win0_19.index t (1 : Fin 3) * 256 + 256; omega
  | ⟨2, _⟩ => show win0_19.index t (2 : Fin 3) * 256 ≤ (i 2).val ∧ (i 2).val < win0_19.index t (2 : Fin 3) * 256 + 256; omega

/-- THE ARRAY after the run is the cell step of the arguments. -/
theorem final (c : Dev nD) : (dats m 0 c).arrAt 19 cfg0.N = result m c :=
  (dats m 0 c).arrAt_eq_of_cover 19 (result m c) (fun t _ => flushed_eq m c t) (covered)

/-- The kernel's run: the result array at the cell step of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final m c), (h c).2⟩) (Value.run_blocks m ρ)

end Cert.KernelIdeal.Whole

end
-- ==== Proof.JoinRead.lean ====
/-
  Equal pieces laid end to end, read at an entry.

  Four matrices of 2048 rows each, stacked along the rows into one of 8192 rows, hold at row `o + q` (`o` one of 0, 2048,
  4096, 6144 and `q < 2048`) row `q` of the piece that starts at `o`; the same for four vectors of length 2048 laid end to
  end. Each statement is the general reading of a concatenation at an index — the piece whose span along the joined axis
  holds the coordinate, at the coordinate less the extents before it — with the piece and its offset written out.
-/
import Idealize.ShloMosaic.Lib.Pipeline.Value
import Idealize.ShloMosaic.Lib.ValueIdx

namespace Cert.JoinRead

open Idealize.ShloMosaic Idealize.ShloMosaic.ValueIdx

/-- Row `0 + q` of four 2048-row matrices stacked along the rows is row `q` of the first. -/
theorem rows4_0 {α : Type} (xa xb xc xd : (⟨2, ![2048, 2048]⟩ : Shape).Idx → α)
    (h : Shape.Concatenates ([(⟨⟨2, ![2048, 2048]⟩, xa⟩ : (s : Shape) × (s.Idx → α)), ⟨⟨2, ![2048, 2048]⟩, xb⟩, ⟨⟨2, ![2048, 2048]⟩, xc⟩, ⟨⟨2, ![2048, 2048]⟩, xd⟩].map (·.1)) ⟨2, ![8192, 2048]⟩ 0)
    (q k : Fin 2048) (n : Fin 8192) (hn : n.val = 0 + q.val) :
    concatenate ⟨2, ![8192, 2048]⟩ 0 [⟨⟨2, ![2048, 2048]⟩, xa⟩, ⟨⟨2, ![2048, 2048]⟩, xb⟩, ⟨⟨2, ![2048, 2048]⟩, xc⟩, ⟨⟨2, ![2048, 2048]⟩, xd⟩] h (ix2 n k) = xa (ix2 q k) :=
  concatenate_apply_piece (0 : Fin 2) _ h (ix2 n k) 0 (by show 0 < 4; omega) ⟨2, ![2048, 2048]⟩ xa rfl rfl 0 rfl (ix2 q k)
    (fun b hb => match b with
      | ⟨0, _⟩ => absurd rfl hb
      | ⟨1, _⟩ => rfl)
    hn.symm

/-- Row `2048 + q` of four 2048-row matrices stacked along the rows is row `q` of the second. -/
theorem rows4_1 {α : Type} (xa xb xc xd : (⟨2, ![2048, 2048]⟩ : Shape).Idx → α)
    (h : Shape.Concatenates ([(⟨⟨2, ![2048, 2048]⟩, xa⟩ : (s : Shape) × (s.Idx → α)), ⟨⟨2, ![2048, 2048]⟩, xb⟩, ⟨⟨2, ![2048, 2048]⟩, xc⟩, ⟨⟨2, ![2048, 2048]⟩, xd⟩].map (·.1)) ⟨2, ![8192, 2048]⟩ 0)
    (q k : Fin 2048) (n : Fin 8192) (hn : n.val = 2048 + q.val) :
    concatenate ⟨2, ![8192, 2048]⟩ 0 [⟨⟨2, ![2048, 2048]⟩, xa⟩, ⟨⟨2, ![2048, 2048]⟩, xb⟩, ⟨⟨2, ![2048, 2048]⟩, xc⟩, ⟨⟨2, ![2048, 2048]⟩, xd⟩] h (ix2 n k) = xb (ix2 q k) :=
  concatenate_apply_piece (0 : Fin 2) _ h (ix2 n k) 1 (by show 1 < 4; omega) ⟨2, ![2048, 2048]⟩ xb rfl rfl 2048 rfl (ix2 q k)
    (fun b hb => match b with
      | ⟨0, _⟩ => absurd rfl hb
      | ⟨1, _⟩ => rfl)
    hn.symm

/-- Row `4096 + q` of four 2048-row matrices stacked along the rows is row `q` of the third. -/
theorem rows4_2 {α : Type} (xa xb xc xd : (⟨2, ![2048, 2048]⟩ : Shape).Idx → α)
    (h : Shape.Concatenates ([(⟨⟨2, ![2048, 2048]⟩, xa⟩ : (s : Shape) × (s.Idx → α)), ⟨⟨2, ![2048, 2048]⟩, xb⟩, ⟨⟨2, ![2048, 2048]⟩, xc⟩, ⟨⟨2, ![2048, 2048]⟩, xd⟩].map (·.1)) ⟨2, ![8192, 2048]⟩ 0)
    (q k : Fin 2048) (n : Fin 8192) (hn : n.val = 4096 + q.val) :
    concatenate ⟨2, ![8192, 2048]⟩ 0 [⟨⟨2, ![2048, 2048]⟩, xa⟩, ⟨⟨2, ![2048, 2048]⟩, xb⟩, ⟨⟨2, ![2048, 2048]⟩, xc⟩, ⟨⟨2, ![2048, 2048]⟩, xd⟩] h (ix2 n k) = xc (ix2 q k) :=
  concatenate_apply_piece (0 : Fin 2) _ h (ix2 n k) 2 (by show 2 < 4; omega) ⟨2, ![2048, 2048]⟩ xc rfl rfl 4096 rfl (ix2 q k)
    (fun b hb => match b with
      | ⟨0, _⟩ => absurd rfl hb
      | ⟨1, _⟩ => rfl)
    hn.symm

/-- Row `6144 + q` of four 2048-row matrices stacked along the rows is row `q` of the fourth. -/
theorem rows4_3 {α : Type} (xa xb xc xd : (⟨2, ![2048, 2048]⟩ : Shape).Idx → α)
    (h : Shape.Concatenates ([(⟨⟨2, ![2048, 2048]⟩, xa⟩ : (s : Shape) × (s.Idx → α)), ⟨⟨2, ![2048, 2048]⟩, xb⟩, ⟨⟨2, ![2048, 2048]⟩, xc⟩, ⟨⟨2, ![2048, 2048]⟩, xd⟩].map (·.1)) ⟨2, ![8192, 2048]⟩ 0)
    (q k : Fin 2048) (n : Fin 8192) (hn : n.val = 6144 + q.val) :
    concatenate ⟨2, ![8192, 2048]⟩ 0 [⟨⟨2, ![2048, 2048]⟩, xa⟩, ⟨⟨2, ![2048, 2048]⟩, xb⟩, ⟨⟨2, ![2048, 2048]⟩, xc⟩, ⟨⟨2, ![2048, 2048]⟩, xd⟩] h (ix2 n k) = xd (ix2 q k) :=
  concatenate_apply_piece (0 : Fin 2) _ h (ix2 n k) 3 (by show 3 < 4; omega) ⟨2, ![2048, 2048]⟩ xd rfl rfl 6144 rfl (ix2 q k)
    (fun b hb => match b with
      | ⟨0, _⟩ => absurd rfl hb
      | ⟨1, _⟩ => rfl)
    hn.symm

/-- Entry `0 + q` of four length-2048 vectors laid end to end is entry `q` of the first. -/
theorem ends4_0 {α : Type} (xa xb xc xd : (⟨1, ![2048]⟩ : Shape).Idx → α)
    (h : Shape.Concatenates ([(⟨⟨1, ![2048]⟩, xa⟩ : (s : Shape) × (s.Idx → α)), ⟨⟨1, ![2048]⟩, xb⟩, ⟨⟨1, ![2048]⟩, xc⟩, ⟨⟨1, ![2048]⟩, xd⟩].map (·.1)) ⟨1, ![8192]⟩ 0)
    (q : Fin 2048) (n : Fin 8192) (hn : n.val = 0 + q.val) :
    concatenate ⟨1, ![8192]⟩ 0 [⟨⟨1, ![2048]⟩, xa⟩, ⟨⟨1, ![2048]⟩, xb⟩, ⟨⟨1, ![2048]⟩, xc⟩, ⟨⟨1, ![2048]⟩, xd⟩] h (ix1 n) = xa (ix1 q) :=
  concatenate_apply_piece (0 : Fin 1) _ h (ix1 n) 0 (by show 0 < 4; omega) ⟨1, ![2048]⟩ xa rfl rfl 0 rfl (ix1 q)
    (fun b hb => match b with
      | ⟨0, _⟩ => absurd rfl hb)
    hn.symm

/-- Entry `2048 + q` of four length-2048 vectors laid end to end is entry `q` of the second. -/
theorem ends4_1 {α : Type} (xa xb xc xd : (⟨1, ![2048]⟩ : Shape).Idx → α)
    (h : Shape.Concatenates ([(⟨⟨1, ![2048]⟩, xa⟩ : (s : Shape) × (s.Idx → α)), ⟨⟨1, ![2048]⟩, xb⟩, ⟨⟨1, ![2048]⟩, xc⟩, ⟨⟨1, ![2048]⟩, xd⟩].map (·.1)) ⟨1, ![8192]⟩ 0)
    (q : Fin 2048) (n : Fin 8192) (hn : n.val = 2048 + q.val) :
    concatenate ⟨1, ![8192]⟩ 0 [⟨⟨1, ![2048]⟩, xa⟩, ⟨⟨1, ![2048]⟩, xb⟩, ⟨⟨1, ![2048]⟩, xc⟩, ⟨⟨1, ![2048]⟩, xd⟩] h (ix1 n) = xb (ix1 q) :=
  concatenate_apply_piece (0 : Fin 1) _ h (ix1 n) 1 (by show 1 < 4; omega) ⟨1, ![2048]⟩ xb rfl rfl 2048 rfl (ix1 q)
    (fun b hb => match b with
      | ⟨0, _⟩ => absurd rfl hb)
    hn.symm

/-- Entry `4096 + q` of four length-2048 vectors laid end to end is entry `q` of the third. -/
theorem ends4_2 {α : Type} (xa xb xc xd : (⟨1, ![2048]⟩ : Shape).Idx → α)
    (h : Shape.Concatenates ([(⟨⟨1, ![2048]⟩, xa⟩ : (s : Shape) × (s.Idx → α)), ⟨⟨1, ![2048]⟩, xb⟩, ⟨⟨1, ![2048]⟩, xc⟩, ⟨⟨1, ![2048]⟩, xd⟩].map (·.1)) ⟨1, ![8192]⟩ 0)
    (q : Fin 2048) (n : Fin 8192) (hn : n.val = 4096 + q.val) :
    concatenate ⟨1, ![8192]⟩ 0 [⟨⟨1, ![2048]⟩, xa⟩, ⟨⟨1, ![2048]⟩, xb⟩, ⟨⟨1, ![2048]⟩, xc⟩, ⟨⟨1, ![2048]⟩, xd⟩] h (ix1 n) = xc (ix1 q) :=
  concatenate_apply_piece (0 : Fin 1) _ h (ix1 n) 2 (by show 2 < 4; omega) ⟨1, ![2048]⟩ xc rfl rfl 4096 rfl (ix1 q)
    (fun b hb => match b with
      | ⟨0, _⟩ => absurd rfl hb)
    hn.symm

/-- Entry `6144 + q` of four length-2048 vectors laid end to end is entry `q` of the fourth. -/
theorem ends4_3 {α : Type} (xa xb xc xd : (⟨1, ![2048]⟩ : Shape).Idx → α)
    (h : Shape.Concatenates ([(⟨⟨1, ![2048]⟩, xa⟩ : (s : Shape) × (s.Idx → α)), ⟨⟨1, ![2048]⟩, xb⟩, ⟨⟨1, ![2048]⟩, xc⟩, ⟨⟨1, ![2048]⟩, xd⟩].map (·.1)) ⟨1, ![8192]⟩ 0)
    (q : Fin 2048) (n : Fin 8192) (hn : n.val = 6144 + q.val) :
    concatenate ⟨1, ![8192]⟩ 0 [⟨⟨1, ![2048]⟩, xa⟩, ⟨⟨1, ![2048]⟩, xb⟩, ⟨⟨1, ![2048]⟩, xc⟩, ⟨⟨1, ![2048]⟩, xd⟩] h (ix1 n) = xd (ix1 q) :=
  concatenate_apply_piece (0 : Fin 1) _ h (ix1 n) 3 (by show 3 < 4; omega) ⟨1, ![2048]⟩ xd rfl rfl 6144 rfl (ix1 q)
    (fun b hb => match b with
      | ⟨0, _⟩ => absurd rfl hb)
    hn.symm

end Cert.JoinRead
-- ==== Proof.LibLogisticForm.lean ====
/-
  The logistic function written as a quotient, over the extended reals.

  A program may apply the logistic function as one operation or spell it `1 / (1 + e^(-z))` with the 32-bit pattern of
  the number one, a negation, an exponential, a sum and a quotient. Over the extended reals the two are the same function:
  the pattern `0x3F800000` denotes one, and the logistic function is defined as that quotient, with the conventions
  `e^(-∞) = 0` and `1 / ∞ = 0` giving the limits `1` at `+∞` and `0` at `-∞`.
-/
import Idealize.ShloMosaic.PureOps.Ideal

noncomputable section

namespace Idealize.ShloMosaic.LogisticForm

open Idealize.ShloMosaic

/-- The bit pattern `0x3F800000` of the 32-bit format denotes the number one. -/
theorem one_f32 : Ideal.ofBits .f32 0x3F800000#32 = 1 := by
  simp [Ideal.ofBits, Ideal.ieee, -EReal.coe_mul]; norm_num

/-- One over one plus the exponential of the negation, in the host's operations and with the number one given by its
    32-bit pattern, is the logistic function. -/
theorem logistic_spelt (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  rw [Ideal.ofBits_def, one_f32]
  rfl

end Idealize.ShloMosaic.LogisticForm

end
-- ==== Proof.ReferenceStep.lean ====
/-
  The reference computes the cell step, entry by entry, over the extended reals.

  The reference stacks the four gates' input weights into one 8192 × 2048 matrix, likewise the hidden weights and the two
  families of biases, and forms all four pre-activations at once: entry (p, n) of
      (x · Wᵀ + h · Uᵀ) + b + d          (a 4096 × 8192 array, b and d repeated down the rows)
  is the pre-activation built from row p of x and h, row n of the stacked weights and entry n of the stacked biases. Gate
  g is the column block starting at 2048·g, and row (entry) 2048·g + q of a stack is row (entry) q of piece g: so each
  gate's slice at (p, q) is that gate's own pre-activation. The logistic function is written 1 / (1 + e^(−z)) with the
  number one given by its 32-bit pattern, which is the logistic function itself. The result joins the new hidden state
  and the new cell state, each given a leading unit axis, along that axis.
-/
import proofs.«109894_j17480516895199_2_alg».proof.Proof.Gen.ReferenceIdeal.Read
import proofs.«109894_j17480516895199_2_alg».proof.Proof.CellStep
import proofs.«109894_j17480516895199_2_alg».proof.Proof.JoinRead
import proofs.«109894_j17480516895199_2_alg».proof.Proof.LibLogisticForm

noncomputable section

namespace Cert.ReferenceIdeal.StepRead

open Cert.ReferenceIdeal Cert.ReferenceIdeal.Gen Cert.ReferenceIdeal.Read Idealize.ShloMosaic Idealize.ShloMosaic.ValueIdx
open Cert.CellStep Cert.JoinRead

/-! ## The operand indices of the two products and of the repeated biases, by coordinates -/

theorem lidx5 (p : Fin 4096) (n : Fin 8192) (k : Fin 2048) : lidx_main_v5 (ix2 p n) k = ix2 p k :=
  funext fun a => Fin.ext (by match a with | ⟨0, _⟩ => rfl | ⟨1, _⟩ => rfl)
theorem lidx7 (p : Fin 4096) (n : Fin 8192) (k : Fin 2048) : lidx_main_v7 (ix2 p n) k = ix2 p k :=
  funext fun a => Fin.ext (by match a with | ⟨0, _⟩ => rfl | ⟨1, _⟩ => rfl)
/-- The right operand is the transposed stack: its entry `(k, n)` is the stack's `(n, k)`. -/
theorem ridx5 (p : Fin 4096) (n : Fin 8192) (k : Fin 2048) : idx_main_v4 (ridx_main_v5 (ix2 p n) k) = ix2 n k :=
  funext fun a => Fin.ext (by match a with | ⟨0, _⟩ => rfl | ⟨1, _⟩ => rfl)
theorem ridx7 (p : Fin 4096) (n : Fin 8192) (k : Fin 2048) : idx_main_v6 (ridx_main_v7 (ix2 p n) k) = ix2 n k :=
  funext fun a => Fin.ext (by match a with | ⟨0, _⟩ => rfl | ⟨1, _⟩ => rfl)
theorem bidx (p : Fin 4096) (n : Fin 8192) : idx_main_v9 (idx_main_v10 (ix2 p n)) = ix1 n :=
  funext fun a => Fin.ext (by match a with | ⟨0, _⟩ => rfl)
theorem didx (p : Fin 4096) (n : Fin 8192) : idx_main_v12 (idx_main_v13 (ix2 p n)) = ix1 n :=
  funext fun a => Fin.ext (by match a with | ⟨0, _⟩ => rfl)

/-! ## All four gates at once -/

/-- Entry `(p, n)` of the fused pre-activations: rows `p` of `x` and `h` against row `n` of the stacked weights, plus entry `n`
    of each stacked bias. -/
theorem fused_at (x0 x1 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (p : Fin 4096) (n : Fin 8192) :
    val_main_v14 (F := Ideal) x0 x1 x3 x4 x5 x6 x7 x8 x9 x10 x11 x12 x13 x14 x15 x16 x17 x18 (ix2 p n)
      = pre (row x0 p) (row (val_main_v0 (F := Ideal) x3 x7 x11 x15) n) (row x1 p) (row (val_main_v1 (F := Ideal) x5 x9 x13 x17) n) ((val_main_v2 (F := Ideal) x4 x8 x12 x16) (ix1 n)) ((val_main_v3 (F := Ideal) x6 x10 x14 x18) (ix1 n)) := by
  rw [val_main_v14_apply, val_main_v11_apply, val_main_v8_apply, val_main_v5_apply, val_main_v7_apply, val_main_v10_apply,
    val_main_v9_apply, val_main_v13_apply, val_main_v12_apply]
  simp only [val_main_v4_apply, val_main_v6_apply, lidx5, lidx7, ridx5, ridx7, bidx, didx]
  rfl

/-! ## One gate: its column block -/

/-- The input gate's pre-activation at `(p, q)`: column `0 + q` of the fused pre-activations, whose weight rows and bias
    entries there are row `q` and entry `q` of the input gate's own. -/
theorem gate0_at (x0 x1 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (p : Fin 4096) (q : Fin 2048) :
    val_main_v15 (F := Ideal) x0 x1 x3 x4 x5 x6 x7 x8 x9 x10 x11 x12 x13 x14 x15 x16 x17 x18 (ix2 p q) = pre (row x0 p) (row x3 q) (row x1 p) (row x5 q) (x4 (ix1 q)) (x6 (ix1 q)) := by
  have hq : 0 + q.val < 8192 := by have := q.isLt; omega
  have hi : idx_main_v15 (ix2 p q) = ix2 p (⟨0 + q.val, hq⟩ : Fin 8192) := funext fun a => Fin.ext (by
    match a with
    | ⟨0, _⟩ => rfl
    | ⟨1, _⟩ => show q.val = 0 + q.val; omega)
  have rW : row (val_main_v0 (F := Ideal) x3 x7 x11 x15) (⟨0 + q.val, hq⟩ : Fin 8192) = row x3 q :=
    funext fun k => rows4_0 x3 x7 x11 x15 concatenates_S2048x2048_S2048x2048_S2048x2048_S2048x2048_S8192x2048_d0 q k ⟨0 + q.val, hq⟩ rfl
  have rU : row (val_main_v1 (F := Ideal) x5 x9 x13 x17) (⟨0 + q.val, hq⟩ : Fin 8192) = row x5 q :=
    funext fun k => rows4_0 x5 x9 x13 x17 concatenates_S2048x2048_S2048x2048_S2048x2048_S2048x2048_S8192x2048_d0 q k ⟨0 + q.val, hq⟩ rfl
  have eb : (val_main_v2 (F := Ideal) x4 x8 x12 x16) (ix1 (⟨0 + q.val, hq⟩ : Fin 8192)) = x4 (ix1 q) :=
    ends4_0 x4 x8 x12 x16 concatenates_S2048_S2048_S2048_S2048_S8192_d0 q ⟨0 + q.val, hq⟩ rfl
  have ed : (val_main_v3 (F := Ideal) x6 x10 x14 x18) (ix1 (⟨0 + q.val, hq⟩ : Fin 8192)) = x6 (ix1 q) :=
    ends4_0 x6 x10 x14 x18 concatenates_S2048_S2048_S2048_S2048_S8192_d0 q ⟨0 + q.val, hq⟩ rfl
  rw [val_main_v15_apply, hi, fused_at, rW, rU, eb, ed]

/-- The forget gate's pre-activation at `(p, q)`: column `2048 + q` of the fused pre-activations, whose weight rows and bias
    entries there are row `q` and entry `q` of the forget gate's own. -/
theorem gate1_at (x0 x1 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (p : Fin 4096) (q : Fin 2048) :
    val_main_v16 (F := Ideal) x0 x1 x3 x4 x5 x6 x7 x8 x9 x10 x11 x12 x13 x14 x15 x16 x17 x18 (ix2 p q) = pre (row x0 p) (row x7 q) (row x1 p) (row x9 q) (x8 (ix1 q)) (x10 (ix1 q)) := by
  have hq : 2048 + q.val < 8192 := by have := q.isLt; omega
  have hi : idx_main_v16 (ix2 p q) = ix2 p (⟨2048 + q.val, hq⟩ : Fin 8192) := funext fun a => Fin.ext (by
    match a with
    | ⟨0, _⟩ => rfl
    | ⟨1, _⟩ => rfl)
  have rW : row (val_main_v0 (F := Ideal) x3 x7 x11 x15) (⟨2048 + q.val, hq⟩ : Fin 8192) = row x7 q :=
    funext fun k => rows4_1 x3 x7 x11 x15 concatenates_S2048x2048_S2048x2048_S2048x2048_S2048x2048_S8192x2048_d0 q k ⟨2048 + q.val, hq⟩ rfl
  have rU : row (val_main_v1 (F := Ideal) x5 x9 x13 x17) (⟨2048 + q.val, hq⟩ : Fin 8192) = row x9 q :=
    funext fun k => rows4_1 x5 x9 x13 x17 concatenates_S2048x2048_S2048x2048_S2048x2048_S2048x2048_S8192x2048_d0 q k ⟨2048 + q.val, hq⟩ rfl
  have eb : (val_main_v2 (F := Ideal) x4 x8 x12 x16) (ix1 (⟨2048 + q.val, hq⟩ : Fin 8192)) = x8 (ix1 q) :=
    ends4_1 x4 x8 x12 x16 concatenates_S2048_S2048_S2048_S2048_S8192_d0 q ⟨2048 + q.val, hq⟩ rfl
  have ed : (val_main_v3 (F := Ideal) x6 x10 x14 x18) (ix1 (⟨2048 + q.val, hq⟩ : Fin 8192)) = x10 (ix1 q) :=
    ends4_1 x6 x10 x14 x18 concatenates_S2048_S2048_S2048_S2048_S8192_d0 q ⟨2048 + q.val, hq⟩ rfl
  rw [val_main_v16_apply, hi, fused_at, rW, rU, eb, ed]

/-- The candidate gate's pre-activation at `(p, q)`: column `4096 + q` of the fused pre-activations, whose weight rows and bias
    entries there are row `q` and entry `q` of the candidate gate's own. -/
theorem gate2_at (x0 x1 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (p : Fin 4096) (q : Fin 2048) :
    val_main_v17 (F := Ideal) x0 x1 x3 x4 x5 x6 x7 x8 x9 x10 x11 x12 x13 x14 x15 x16 x17 x18 (ix2 p q) = pre (row x0 p) (row x11 q) (row x1 p) (row x13 q) (x12 (ix1 q)) (x14 (ix1 q)) := by
  have hq : 4096 + q.val < 8192 := by have := q.isLt; omega
  have hi : idx_main_v17 (ix2 p q) = ix2 p (⟨4096 + q.val, hq⟩ : Fin 8192) := funext fun a => Fin.ext (by
    match a with
    | ⟨0, _⟩ => rfl
    | ⟨1, _⟩ => rfl)
  have rW : row (val_main_v0 (F := Ideal) x3 x7 x11 x15) (⟨4096 + q.val, hq⟩ : Fin 8192) = row x11 q :=
    funext fun k => rows4_2 x3 x7 x11 x15 concatenates_S2048x2048_S2048x2048_S2048x2048_S2048x2048_S8192x2048_d0 q k ⟨4096 + q.val, hq⟩ rfl
  have rU : row (val_main_v1 (F := Ideal) x5 x9 x13 x17) (⟨4096 + q.val, hq⟩ : Fin 8192) = row x13 q :=
    funext fun k => rows4_2 x5 x9 x13 x17 concatenates_S2048x2048_S2048x2048_S2048x2048_S2048x2048_S8192x2048_d0 q k ⟨4096 + q.val, hq⟩ rfl
  have eb : (val_main_v2 (F := Ideal) x4 x8 x12 x16) (ix1 (⟨4096 + q.val, hq⟩ : Fin 8192)) = x12 (ix1 q) :=
    ends4_2 x4 x8 x12 x16 concatenates_S2048_S2048_S2048_S2048_S8192_d0 q ⟨4096 + q.val, hq⟩ rfl
  have ed : (val_main_v3 (F := Ideal) x6 x10 x14 x18) (ix1 (⟨4096 + q.val, hq⟩ : Fin 8192)) = x14 (ix1 q) :=
    ends4_2 x6 x10 x14 x18 concatenates_S2048_S2048_S2048_S2048_S8192_d0 q ⟨4096 + q.val, hq⟩ rfl
  rw [val_main_v17_apply, hi, fused_at, rW, rU, eb, ed]

/-- The output gate's pre-activation at `(p, q)`: column `6144 + q` of the fused pre-activations, whose weight rows and bias
    entries there are row `q` and entry `q` of the output gate's own. -/
theorem gate3_at (x0 x1 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (p : Fin 4096) (q : Fin 2048) :
    val_main_v18 (F := Ideal) x0 x1 x3 x4 x5 x6 x7 x8 x9 x10 x11 x12 x13 x14 x15 x16 x17 x18 (ix2 p q) = pre (row x0 p) (row x15 q) (row x1 p) (row x17 q) (x16 (ix1 q)) (x18 (ix1 q)) := by
  have hq : 6144 + q.val < 8192 := by have := q.isLt; omega
  have hi : idx_main_v18 (ix2 p q) = ix2 p (⟨6144 + q.val, hq⟩ : Fin 8192) := funext fun a => Fin.ext (by
    match a with
    | ⟨0, _⟩ => rfl
    | ⟨1, _⟩ => rfl)
  have rW : row (val_main_v0 (F := Ideal) x3 x7 x11 x15) (⟨6144 + q.val, hq⟩ : Fin 8192) = row x15 q :=
    funext fun k => rows4_3 x3 x7 x11 x15 concatenates_S2048x2048_S2048x2048_S2048x2048_S2048x2048_S8192x2048_d0 q k ⟨6144 + q.val, hq⟩ rfl
  have rU : row (val_main_v1 (F := Ideal) x5 x9 x13 x17) (⟨6144 + q.val, hq⟩ : Fin 8192) = row x17 q :=
    funext fun k => rows4_3 x5 x9 x13 x17 concatenates_S2048x2048_S2048x2048_S2048x2048_S2048x2048_S8192x2048_d0 q k ⟨6144 + q.val, hq⟩ rfl
  have eb : (val_main_v2 (F := Ideal) x4 x8 x12 x16) (ix1 (⟨6144 + q.val, hq⟩ : Fin 8192)) = x16 (ix1 q) :=
    ends4_3 x4 x8 x12 x16 concatenates_S2048_S2048_S2048_S2048_S8192_d0 q ⟨6144 + q.val, hq⟩ rfl
  have ed : (val_main_v3 (F := Ideal) x6 x10 x14 x18) (ix1 (⟨6144 + q.val, hq⟩ : Fin 8192)) = x18 (ix1 q) :=
    ends4_3 x6 x10 x14 x18 concatenates_S2048_S2048_S2048_S2048_S8192_d0 q ⟨6144 + q.val, hq⟩ rfl
  rw [val_main_v18_apply, hi, fused_at, rW, rU, eb, ed]

/-! ## The gates' nonlinearities and the two updates -/

/-- The input gate: one over one plus the exponential of the negated pre-activation is its logistic function. -/
theorem v24_at (x0 x1 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (i : S4096x2048.Idx) :
    val_main_v24 (F := Ideal) x0 x1 x3 x4 x5 x6 x7 x8 x9 x10 x11 x12 x13 x14 x15 x16 x17 x18 i = Ideal.logistic (val_main_v15 (F := Ideal) x0 x1 x3 x4 x5 x6 x7 x8 x9 x10 x11 x12 x13 x14 x15 x16 x17 x18 i) := by
  rw [val_main_v24_apply, val_main_v23_apply, val_main_cst_0_apply, val_main_v22_apply, val_main_v21_apply,
    val_main_cst_apply, val_main_v20_apply, val_main_v19_apply]
  exact Idealize.ShloMosaic.LogisticForm.logistic_spelt _

/-- The forget gate: one over one plus the exponential of the negated pre-activation is its logistic function. -/
theorem v30_at (x0 x1 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (i : S4096x2048.Idx) :
    val_main_v30 (F := Ideal) x0 x1 x3 x4 x5 x6 x7 x8 x9 x10 x11 x12 x13 x14 x15 x16 x17 x18 i = Ideal.logistic (val_main_v16 (F := Ideal) x0 x1 x3 x4 x5 x6 x7 x8 x9 x10 x11 x12 x13 x14 x15 x16 x17 x18 i) := by
  rw [val_main_v30_apply, val_main_v29_apply, val_main_cst_2_apply, val_main_v28_apply, val_main_v27_apply,
    val_main_cst_1_apply, val_main_v26_apply, val_main_v25_apply]
  exact Idealize.ShloMosaic.LogisticForm.logistic_spelt _

/-- The output gate: one over one plus the exponential of the negated pre-activation is its logistic function. -/
theorem v37_at (x0 x1 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (i : S4096x2048.Idx) :
    val_main_v37 (F := Ideal) x0 x1 x3 x4 x5 x6 x7 x8 x9 x10 x11 x12 x13 x14 x15 x16 x17 x18 i = Ideal.logistic (val_main_v18 (F := Ideal) x0 x1 x3 x4 x5 x6 x7 x8 x9 x10 x11 x12 x13 x14 x15 x16 x17 x18 i) := by
  rw [val_main_v37_apply, val_main_v36_apply, val_main_cst_4_apply, val_main_v35_apply, val_main_v34_apply,
    val_main_cst_3_apply, val_main_v33_apply, val_main_v32_apply]
  exact Idealize.ShloMosaic.LogisticForm.logistic_spelt _

/-- The new cell state at an entry. -/
theorem v40_at (x0 x1 x2 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (i : S4096x2048.Idx) :
    val_main_v40 (F := Ideal) x0 x1 x2 x3 x4 x5 x6 x7 x8 x9 x10 x11 x12 x13 x14 x15 x16 x17 x18 i
      = cellNew (val_main_v15 (F := Ideal) x0 x1 x3 x4 x5 x6 x7 x8 x9 x10 x11 x12 x13 x14 x15 x16 x17 x18 i) (val_main_v16 (F := Ideal) x0 x1 x3 x4 x5 x6 x7 x8 x9 x10 x11 x12 x13 x14 x15 x16 x17 x18 i) (val_main_v17 (F := Ideal) x0 x1 x3 x4 x5 x6 x7 x8 x9 x10 x11 x12 x13 x14 x15 x16 x17 x18 i) (x2 i) := by
  rw [val_main_v40_apply, val_main_v38_apply, val_main_v39_apply, v24_at, v30_at, val_main_v31_apply]
  rfl

/-- The new hidden state at an entry. -/
theorem v42_at (x0 x1 x2 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (i : S4096x2048.Idx) :
    val_main_v42 (F := Ideal) x0 x1 x2 x3 x4 x5 x6 x7 x8 x9 x10 x11 x12 x13 x14 x15 x16 x17 x18 i
      = hiddenNew (val_main_v18 (F := Ideal) x0 x1 x3 x4 x5 x6 x7 x8 x9 x10 x11 x12 x13 x14 x15 x16 x17 x18 i) (val_main_v40 (F := Ideal) x0 x1 x2 x3 x4 x5 x6 x7 x8 x9 x10 x11 x12 x13 x14 x15 x16 x17 x18 i) := by
  rw [val_main_v42_apply, v37_at, val_main_v41_apply]
  rfl

/-! ## The result -/

/-- THE REFERENCE'S RESULT is the cell step of its arguments: plane 0 the new hidden state, plane 1 the new cell state. -/
theorem result_eq (x0 x1 x2 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) :
    val_main_v45 (F := Ideal) x0 x1 x2 x3 x4 x5 x6 x7 x8 x9 x10 x11 x12 x13 x14 x15 x16 x17 x18 = step x0 x1 x2 x3 x5 x4 x6 x7 x9 x8 x10 x11 x13 x12 x14 x15 x17 x16 x18 := by
  funext j
  obtain ⟨s, p, q, rfl⟩ : ∃ (s : Fin 2) (p : Fin 4096) (q : Fin 2048), j = ix3 s p q := ⟨j 0, j 1, j 2, eq_ix3 j⟩
  have hidx43 : idx_main_v43 (ix3 (0 : Fin 1) p q) = ix2 p q := funext fun a => Fin.ext (by match a with | ⟨0, _⟩ => rfl | ⟨1, _⟩ => rfl)
  have hidx44 : idx_main_v44 (ix3 (0 : Fin 1) p q) = ix2 p q := funext fun a => Fin.ext (by match a with | ⟨0, _⟩ => rfl | ⟨1, _⟩ => rfl)
  unfold val_main_v45
  match s with
  | ⟨0, _⟩ =>
    rw [concatenate_pair_apply_left (t := S2x4096x2048) (s₁ := S1x4096x2048) (s₂ := S1x4096x2048) (0 : Fin 3) _ _ _ (ix3 (⟨0, by omega⟩ : Fin 2) p q) rfl (ix3 (0 : Fin 1) p q)
      (fun b => match b with | ⟨0, _⟩ => rfl | ⟨1, _⟩ => rfl | ⟨2, _⟩ => rfl)]
    rw [val_main_v43_apply, hidx43, v42_at, v40_at, gate3_at, gate0_at, gate1_at, gate2_at]
    rfl
  | ⟨1, _⟩ =>
    rw [concatenate_pair_apply_right (t := S2x4096x2048) (s₁ := S1x4096x2048) (s₂ := S1x4096x2048) (0 : Fin 3) _ _ _ (ix3 (⟨1, by omega⟩ : Fin 2) p q) rfl rfl (ix3 (0 : Fin 1) p q)
      (fun b hb => match b with | ⟨0, _⟩ => absurd rfl hb | ⟨1, _⟩ => rfl | ⟨2, _⟩ => rfl) rfl]
    rw [val_main_v44_apply, hidx44, v40_at, gate0_at, gate1_at, gate2_at]
    rfl

end Cert.ReferenceIdeal.StepRead

end
-- ==== Proof.lean ====
/-
  A fused long short-term memory cell step against its plain reference, over the extended reals.

  Both programs take x, h, c (4096 × 2048 each), and for each of the four gates an input weight matrix, a hidden weight
  matrix (2048 × 2048 each) and two bias vectors, and return the new hidden state stacked on the new cell state
  (2 × 4096 × 2048). For row p and hidden unit q every gate's pre-activation is
      ((Σ_k x(p,k)·W(q,k) + Σ_k h(p,k)·U(q,k)) + b(q)) + d(q),
  and with σ the logistic function c'(p,q) = σ(z_f)·c(p,q) + σ(z_i)·tanh(z_g), h'(p,q) = σ(z_o)·tanh(c'(p,q)).

  The kernel computes this one 256 × 256 tile at a time, each gate from its own weights, each product accumulated from
  zero; the reference stacks the four gates' weights and biases, forms all pre-activations in two products, cuts the
  result into the gates' column blocks, and writes the logistic function as 1 / (1 + e^(−z)). Entry by entry the two are
  the same expression: the same two inner products and two biases added in the same order, the same nonlinearities,
  the same two updates. No law of arithmetic is used beyond reading each side at an entry, so nothing is asked of the
  inputs and the finiteness precondition is never opened. The kernel's idealization rewrote no operation, so that
  conjunct is trivially true.

  CellStep states the step; KernelTile and KernelWhole read the kernel's result array as the step of its arguments;
  JoinRead and ReferenceStep read the reference's result as the same step; the claims below put the two runs side by side.
-/
import proofs.«109894_j17480516895199_2_alg».proof.Defs
import proofs.«109894_j17480516895199_2_alg».proof.Proof.Gen.Kernel
import proofs.«109894_j17480516895199_2_alg».proof.Proof.Gen.Kernel.Skeleton
import proofs.«109894_j17480516895199_2_alg».proof.Proof.Gen.Kernel.Launch
import proofs.«109894_j17480516895199_2_alg».proof.Proof.Gen.Kernel.Points
import proofs.«109894_j17480516895199_2_alg».proof.Proof.Gen.Kernel.Frame
import proofs.«109894_j17480516895199_2_alg».proof.Proof.Gen.KernelIdeal
import proofs.«109894_j17480516895199_2_alg».proof.Proof.Gen.KernelIdeal.Skeleton
import proofs.«109894_j17480516895199_2_alg».proof.Proof.Gen.KernelIdeal.Launch
import proofs.«109894_j17480516895199_2_alg».proof.Proof.Gen.KernelIdeal.Points
import proofs.«109894_j17480516895199_2_alg».proof.Proof.Gen.KernelIdeal.Frame
import proofs.«109894_j17480516895199_2_alg».proof.Proof.Gen.ReferenceIdeal
import proofs.«109894_j17480516895199_2_alg».proof.Proof.Gen.Pre_finite_inputs
import proofs.«109894_j17480516895199_2_alg».proof.Proof.Gen.KernelIdeal.Value
import proofs.«109894_j17480516895199_2_alg».proof.Proof.Gen.ReferenceIdeal.Run
import proofs.«109894_j17480516895199_2_alg».proof.Proof.Gen.ReferenceIdeal.Read
import proofs.«109894_j17480516895199_2_alg».proof.Proof.KernelWhole
import proofs.«109894_j17480516895199_2_alg».proof.Proof.ReferenceStep
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten to read it over the extended reals: nothing to preserve. -/
theorem preserves : Cert.preserves_Kernel_KernelIdeal := trivial

/-- From memories that agree on the arguments, the kernel's result array and the reference's both end at the cell step of
    those arguments, the same function: the two results are equal entry by entry. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.ReferenceIdeal.Read.val_main_v45_eq, Cert.ReferenceIdeal.StepRead.result_eq,
    h0, h1, h2, h3, h4, h5, h6, h7, h8, h9, h10, h11, h12, h13, h14, h15, h16, h17, h18]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
